-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel

variable [Facts]

def fn {F : FTy → Type} [FloatOps F] (main_arg0 : FVec F S4x1024x64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  main_v3
-- ==== Kernel.lean ====
abbrev S4x1024x64 : Shape := ⟨3, ![4, 1024, 64]⟩
abbrev S4x64x1024 : Shape := ⟨3, ![4, 64, 1024]⟩
abbrev S1x128x64 : Shape := ⟨3, ![1, 128, 64]⟩
abbrev S1x256x64 : Shape := ⟨3, ![1, 256, 64]⟩
abbrev S1x64x256 : Shape := ⟨3, ![1, 64, 256]⟩
abbrev S128x1 : Shape := ⟨2, ![128, 1]⟩
abbrev S128x64 : Shape := ⟨2, ![128, 64]⟩
abbrev S256x64 : Shape := ⟨2, ![256, 64]⟩
abbrev S64x256 : Shape := ⟨2, ![64, 256]⟩
abbrev S128x64x1 : Shape := ⟨3, ![128, 64, 1]⟩
abbrev S128x64x256 : Shape := ⟨3, ![128, 64, 256]⟩
abbrev S128x256 : Shape := ⟨2, ![128, 256]⟩
abbrev S128 : Shape := ⟨1, ![128]⟩

abbrev nBuf : Space → Nat
  | .hbm => 3
  | .vmem => 10
  | .smem => 0
  | _ => 0

abbrev bufTy : (tb : Table) → Fin (tcTables nBuf tb) → BufTy
  | .hbm, ⟨0, _⟩ => ⟨S4x1024x64, .f32⟩
  | .hbm, ⟨1, _⟩ => ⟨S4x64x1024, .f32⟩
  | .hbm, ⟨2, _⟩ => ⟨S4x1024x64, .f32⟩
  | .local _ .vmem, ⟨0, _⟩ => ⟨S1x128x64, .f32⟩
  | .local _ .vmem, ⟨1, _⟩ => ⟨S1x128x64, .f32⟩
  | .local _ .vmem, ⟨2, _⟩ => ⟨S1x256x64, .f32⟩
  | .local _ .vmem, ⟨3, _⟩ => ⟨S1x256x64, .f32⟩
  | .local _ .vmem, ⟨4, _⟩ => ⟨S1x64x256, .f32⟩
  | .local _ .vmem, ⟨5, _⟩ => ⟨S1x64x256, .f32⟩
  | .local _ .vmem, ⟨6, _⟩ => ⟨S1x128x64, .f32⟩
  | .local _ .vmem, ⟨7, _⟩ => ⟨S1x128x64, .f32⟩
  | .local _ .vmem, ⟨8, _⟩ => ⟨S128x1, .f32⟩
  | .local _ .vmem, ⟨9, _⟩ => ⟨S128x64, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_19 : BitVec 32 := 0#32
  let v34 : BitVec 1 := Scalar.cmpi .ne v33 c0_i32_19
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4x1024x64_S4x64x1024_0_2_1 : S4x1024x64.Transposes [0, 2, 1] S4x64x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S128x64_S128x64x1 : S128x64.ShapeCasts S128x64x1
  shapeCasts_S64x256_S1x64x256 : S64x256.ShapeCasts S1x64x256
  broadcasts_S128x64x1_S128x64x256 : S128x64x1.Broadcasts S128x64x256
  broadcasts_S1x64x256_S128x64x256 : S1x64x256.Broadcasts S128x64x256
  reduces_S128x64x256_S128x256 : S128x64x256.Reduces [1] S128x256
  reduces_S128x256_S128 : S128x256.Reduces [1] S128
  shapeCasts_S128_S128x1 : S128.ShapeCasts S128x1
  bitsLt_bf16_f32 : FTy.bits .bf16 < FTy.bits .f32
  broadcasts_S128x1_S128x64 : S128x1.Broadcasts S128x64
  shapeCasts_S128x64_S1x128x64 : S128x64.ShapeCasts S1x128x64
  dot_S128x256_S256x64_S128x64_1_0_0_1_n_n_wf : DotDims.WF S128x256 S256x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S4x1024x64.size a
  hwx0_0 : ∀ i : grid0.Coords, EltTy.bits .f32 = 32 ∨ (Rect.block (s := S4x1024x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S4x1024x64.size a
  hwx0_1 : ∀ i : grid0.Coords, EltTy.bits .f32 = 32 ∨ (Rect.block (s := S4x1024x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S4x64x1024.size a
  hwx0_2 : ∀ i : grid0.Coords, EltTy.bits .f32 = 32 ∨ (Rect.block (s := S4x64x1024) S1x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S4x1024x64.size a
  hwx0_3 : ∀ i : grid0.Coords, EltTy.bits .f32 = 32 ∨ (Rect.block (s := S4x1024x64) S1x128x64.size (cc0_transform_3 i) (hinb0_3 i)).WholeWords (EltTy.packing .f32)

variable [Facts₀]

def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x1024x64 : Shape := ⟨3, ![4, 1024, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S_ : Shape := ⟨0, ![]⟩
abbrev S4x1024x1024 : Shape := ⟨3, ![4, 1024, 1024]⟩
abbrev S4x1024 : Shape := ⟨2, ![4, 1024]⟩
abbrev S4x1024x1 : Shape := ⟨3, ![4, 1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S4x1024x1x64, .f32⟩
  | .hbm, ⟨2, _⟩ => ⟨S4x1x1024x64, .f32⟩
  | .hbm, ⟨3, _⟩ => ⟨S4x1024x1024x64, .f32⟩
  | .hbm, ⟨4, _⟩ => ⟨S4x1024x1024x64, .f32⟩
  | .hbm, ⟨5, _⟩ => ⟨S4x1024x1024x64, .f32⟩
  | .hbm, ⟨6, _⟩ => ⟨S4x1024x1024x64, .f32⟩
  | .hbm, ⟨7, _⟩ => ⟨S_, .f32⟩
  | .hbm, ⟨8, _⟩ => ⟨S4x1024x1024, .f32⟩
  | .hbm, ⟨9, _⟩ => ⟨S_, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024x1, .f32⟩
  | .hbm, ⟨15, _⟩ => ⟨S4x1024x1024, .f32⟩
  | .hbm, ⟨16, _⟩ => ⟨S4x1024x1024, .f32⟩
  | .hbm, ⟨17, _⟩ => ⟨S4x1024x1024, .f32⟩
  | .hbm, ⟨18, _⟩ => ⟨S_, .f32⟩
  | .hbm, ⟨19, _⟩ => ⟨S4x1024, .f32⟩
  | .hbm, ⟨20, _⟩ => ⟨S4x1024x1, .f32⟩
  | .hbm, ⟨21, _⟩ => ⟨S4x1024x1024, .f32⟩
  | .hbm, ⟨22, _⟩ => ⟨S4x1024x1024, .f32⟩
  | .hbm, ⟨23, _⟩ => ⟨S4x1024x64, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  reducesTo_S4x1024x1024x64_S4x1024x1024_d3 : S4x1024x1024x64.ReducesTo [3] S4x1024x1024
  h_S_ : 0 < S_.numel
  reducesTo_S4x1024x1024_S4x1024_d2 : S4x1024x1024.ReducesTo [2] S4x1024
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x1024_0_1_2 : S4x1024x1.BroadcastsInDim S4x1024x1024 (![0, 1, 2] : Fin 3 → Fin S4x1024x1024.rank)
  dot_S4x1024x1024_S4x1024x64_S4x1024x64_2_1_1_2_0_0_wf : DotDims.WF S4x1024x1024 S4x1024x64 S4x1024x64 [2] [1] [1] [2] [0] [0]

variable [Facts₀]

def dot_S4x1024x1024_S4x1024x64_S4x1024x64_2_1_1_2_0_0 : DotDims S4x1024x1024 S4x1024x64 S4x1024x64 where
  lhsContracting := [2]
  rhsContracting := [1]
  lhsNonContracting := [1]
  rhsNonContracting := [2]
  lhsBatch := [0]
  rhsBatch := [0]
  wf := dot_S4x1024x1024_S4x1024x64_S4x1024x64_2_1_1_2_0_0_wf

class Facts : Prop extends Facts₀ where

variable [Facts]
-- ==== Proof.LibSharedLaunch.lean ====
/-
  The launch of a one-region TensorCore program whose input windows may share an array, for a kernel with no
  semaphore of its own that carries named contents in its scratch buffers from point to point.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- A general launch lemma. One kernel region on a static grid, reached by `hmain` with the unscoped buffers at
    contents `V`; the windows may share arrays (`hw` asks nothing of the arrays' distinctness), the certificate
    saying how each shared array's full share is dealt among the windows on it (`hsplit`); the kernel has no
    semaphore of its own; the invariant is any the certificate states point by point, entered from the scoped
    buffers that are no staging buffer at some contents (`hin`) and giving them back after the last point
    (`hout`). Every weakly fair execution terminates, and every window's array ends at what the library computes
    from the proof data (`Dat.arrAt … N`). -/
theorem θ_run_shared_track
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) ⟨m, fun _ => 0, g⟩
      (fun r => ∀ c : Dev nD, ∀ w, r.2.mem (((cfg).spec w).arr.view.loc (c.tc : Thread nD τ)) = (dats p c).arrAt w (cfg).N) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => (show _ ⊢ (scopedRest (cfg).spec c : sProp 𝕄) from by iintro ⟨-, H⟩; iexact H).trans (hin c))
    (hout := fun c => (hout c).trans (by
      iintro H
      isplitr; · iempintro
      iexact H))
    (QY := fun _ _ => True)
    (hY := fun c s' => by
      iintro ⟨-, -, HSI⟩
      imodintro
      isplitr; · ipureintro; trivial
      iexact HSI)
    (hQ := fun s h c w => (h c).1 w)

end Idealize.ShloMosaic.Pipeline

end
-- ==== Proof.Kernel.Entry.lean ====
/-
  The region's surroundings: what the arrays hold when the region is entered (the input, and its transpose
  written by the one host operation before the region), each window's block at a grid point, the two conditions
  of the body (first key block, last key block) in closed form over the 128 grid points (batch, query block, key
  block; the key block is the point's number modulo 4), and where the output window is idle.
-/
import proofs.«151206_j77970836292245_2_alg».proof.Proof.Gen.Kernel.Launch
import proofs.«151206_j77970836292245_2_alg».proof.Proof.Gen.Kernel.Skeleton
import proofs.«151206_j77970836292245_2_alg».proof.Proof.Gen.Kernel.Points
import proofs.«151206_j77970836292245_2_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the transpose. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the transpose, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose leaves the input array as it was. -/
theorem V_main_arg0 (c : Dev nD) : V m c main_arg0 = m ((c : Thread nD τ).loc main_arg0) := by
  dsimp only [V, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key block": the condition under which the accumulators are reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last key block": the condition under which the quotient is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last key block nothing is stored into the output window, and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last key block the output window is stored into. -/
theorem liveAt0_3 : ∀ t : Fin cfg0.N, cond0_1 (grid0.coords t) → cfg0.idle 3 (grid0.coords t) = false := by decide +kernel

/-! ## The staging and scratch memrefs -/

abbrev VO0_3 : View sig .tc .vmem S1x128x64 .f32 := (Memref.whole cc0_stg3_0 : Memref sig .tc .vmem S1x128x64 .f32).view
abbrev ms0_0 (t : Fin cfg0.N) : Memref sig .tc .vmem S1x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x64 .f32 := win0_3.stage (cfg0.slots t 3)
abbrev hs0_3 (t : Fin cfg0.N) : (ms0_3 t).IsWhole := hstage0_3 ((cfg0.slots t 3).cast nbuf0_3)
/-- The two scratch operands: the running sum of the weights and the running weighted sum of the rows. -/
abbrev scM0_0 : Memref sig .tc .vmem S128x1 .f32 := Memref.whole cc0_scratch0
abbrev scM0_1 : Memref sig .tc .vmem S128x64 .f32 := Memref.whole cc0_scratch1
abbrev VS0_0 : View sig .tc .vmem S128x1 .f32 := scM0_0.view
abbrev VS0_1 : View sig .tc .vmem S128x64 .f32 := scM0_1.view

/-- The scoped buffers that are no staging buffer are the two scratch operands, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Hand

end
-- ==== Proof.Kernel.CaseFirst.lean ====
/-
  The kernel body run at the first key block (the accumulators are reset, then this block's sums are added; nothing is stored into the output).
-/
import proofs.«151206_j77970836292245_2_alg».proof.Proof.Kernel.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first key block (the accumulators are reset, then this block's sums are added; nothing is stored into the output): on whole memrefs, the three inputs' at their blocks, it runs to the continuation holding
    the inputs as they were and each buffer it stored into with the stored pieces written; the pieces are found by the run. -/
noncomputable def kernelRun0_A (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : cond0_0 i) (hc1 : ¬cond0_1 i)
    (x0 : Vec F S1x128x64 .f32) (x1 : Vec F S1x256x64 .f32) (x2 : Vec F S1x64x256 .f32) :
    Σ' (LS0 : List (View.Piece (Elt F) S128x1 .f32)), { LS1 : List (View.Piece (Elt F) S128x64 .f32) //
      ∀ (xi3 : Vec F S1x128x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, fun xi3 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.Kernel.CaseMid.lean ====
/-
  The kernel body run at a middle key block (this block's sums are added to what the block before left; nothing is stored into the output).
-/
import proofs.«151206_j77970836292245_2_alg».proof.Proof.Kernel.CaseFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle key block (this block's sums are added to what the block before left; nothing is stored into the output): on whole memrefs, the three inputs' at their blocks, it runs to the continuation holding
    the inputs as they were and each buffer it stored into with the stored pieces written; the pieces are found by the run. -/
noncomputable def kernelRun0_B (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : ¬cond0_1 i)
    (x0 : Vec F S1x128x64 .f32) (x1 : Vec F S1x256x64 .f32) (x2 : Vec F S1x64x256 .f32) (xs0 : Vec F S128x1 .f32) (xs1 : Vec F S128x64 .f32) :
    Σ' (LS0 : List (View.Piece (Elt F) S128x1 .f32)), { LS1 : List (View.Piece (Elt F) S128x64 .f32) //
      ∀ (xi3 : Vec F S1x128x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, fun xi3 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.Kernel.CaseLast.lean ====
/-
  The kernel body run at the last key block (this block's sums are added, then the quotient of the two accumulators is stored into the output).
-/
import proofs.«151206_j77970836292245_2_alg».proof.Proof.Kernel.CaseMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last key block (this block's sums are added, then the quotient of the two accumulators is stored into the output): on whole memrefs, the three inputs' at their blocks, it runs to the continuation holding
    the inputs as they were and each buffer it stored into with the stored pieces written; the pieces are found by the run. -/
noncomputable def kernelRun0_C (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i)
    (x0 : Vec F S1x128x64 .f32) (x1 : Vec F S1x256x64 .f32) (x2 : Vec F S1x64x256 .f32) (xs0 : Vec F S128x1 .f32) (xs1 : Vec F S128x64 .f32) :
    Σ' (L3 : List (View.Piece (Elt F) S1x128x64 .f32)) (LS0 : List (View.Piece (Elt F) S128x1 .f32)), { LS1 : List (View.Piece (Elt F) S128x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.Kernel.Frame.lean ====
/-
  What the two accumulators and the output block hold after each grid point, the proof data of the pipeline,
  and the body obligation at every point.

  The grid runs batch-major, then query block, then key block; so the key block is the point's number modulo 4. At a
  first key block the accumulators are reset and this block's sums added; at the others this block's sums are added to
  what the point before left; at a last key block the quotient of the two accumulators is stored into the output
  block, which is then written back. The accumulators' contents after a point are named by recursion on the point.
-/
import proofs.«151206_j77970836292245_2_alg».proof.Proof.Kernel.CaseLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)
abbrev runB (c : Dev nD) (t : Fin cfg0.N) (h0 : ¬t.val % 4 = 0) (h1 : ¬t.val % 4 = 3) (xs0 : Vec F S128x1 .f32) (xs1 : Vec F S128x64 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1
abbrev runC (c : Dev nD) (t : Fin cfg0.N) (h0 : ¬t.val % 4 = 0) (h1 : t.val % 4 = 3) (xs0 : Vec F S128x1 .f32) (xs1 : Vec F S128x64 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) xs0 xs1

/-! ## The stored pieces cover their buffers -/

theorem scover0_A_0 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : cond0_0 i) (hc1 : ¬cond0_1 i) (x0 : Vec F S1x128x64 .f32) (x1 : Vec F S1x256x64 .f32) (x2 : Vec F S1x64x256 .f32) (y : S128x1.Idx) :
    ∃ pc ∈ (kernelRun0_A (F := F) c i arg3 harg3 arg4 harg4 arg5 harg5 arg6 harg6 arg7 harg7 arg8 harg8 hc0 hc1 x0 x1 x2).1, y ∈ pc.1.set :=
  View.cover_of_tiledL (kernelRun0_A (F := F) c i arg3 harg3 arg4 harg4 arg5 harg5 arg6 harg6 arg7 harg7 arg8 harg8 hc0 hc1 x0 x1 x2).1 S128x1.size (by sl_kernel_rfl) y
theorem scover0_A_1 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : cond0_0 i) (hc1 : ¬cond0_1 i) (x0 : Vec F S1x128x64 .f32) (x1 : Vec F S1x256x64 .f32) (x2 : Vec F S1x64x256 .f32) (y : S128x64.Idx) :
    ∃ pc ∈ (kernelRun0_A (F := F) c i arg3 harg3 arg4 harg4 arg5 harg5 arg6 harg6 arg7 harg7 arg8 harg8 hc0 hc1 x0 x1 x2).2.1, y ∈ pc.1.set :=
  View.cover_of_tiledL (kernelRun0_A (F := F) c i arg3 harg3 arg4 harg4 arg5 harg5 arg6 harg6 arg7 harg7 arg8 harg8 hc0 hc1 x0 x1 x2).2.1 S128x64.size (by sl_kernel_rfl) y
theorem scover0_B_0 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : ¬cond0_1 i) (x0 : Vec F S1x128x64 .f32) (x1 : Vec F S1x256x64 .f32) (x2 : Vec F S1x64x256 .f32) (xs0 : Vec F S128x1 .f32) (xs1 : Vec F S128x64 .f32) (y : S128x1.Idx) :
    ∃ pc ∈ (kernelRun0_B (F := F) c i arg3 harg3 arg4 harg4 arg5 harg5 arg6 harg6 arg7 harg7 arg8 harg8 hc0 hc1 x0 x1 x2 xs0 xs1).1, y ∈ pc.1.set :=
  View.cover_of_tiledL (kernelRun0_B (F := F) c i arg3 harg3 arg4 harg4 arg5 harg5 arg6 harg6 arg7 harg7 arg8 harg8 hc0 hc1 x0 x1 x2 xs0 xs1).1 S128x1.size (by sl_kernel_rfl) y
theorem scover0_B_1 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : ¬cond0_1 i) (x0 : Vec F S1x128x64 .f32) (x1 : Vec F S1x256x64 .f32) (x2 : Vec F S1x64x256 .f32) (xs0 : Vec F S128x1 .f32) (xs1 : Vec F S128x64 .f32) (y : S128x64.Idx) :
    ∃ pc ∈ (kernelRun0_B (F := F) c i arg3 harg3 arg4 harg4 arg5 harg5 arg6 harg6 arg7 harg7 arg8 harg8 hc0 hc1 x0 x1 x2 xs0 xs1).2.1, y ∈ pc.1.set :=
  View.cover_of_tiledL (kernelRun0_B (F := F) c i arg3 harg3 arg4 harg4 arg5 harg5 arg6 harg6 arg7 harg7 arg8 harg8 hc0 hc1 x0 x1 x2 xs0 xs1).2.1 S128x64.size (by sl_kernel_rfl) y
theorem cover0_C_3 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i) (x0 : Vec F S1x128x64 .f32) (x1 : Vec F S1x256x64 .f32) (x2 : Vec F S1x64x256 .f32) (xs0 : Vec F S128x1 .f32) (xs1 : Vec F S128x64 .f32) (y : S1x128x64.Idx) :
    ∃ pc ∈ (kernelRun0_C (F := F) c i arg3 harg3 arg4 harg4 arg5 harg5 arg6 harg6 arg7 harg7 arg8 harg8 hc0 hc1 x0 x1 x2 xs0 xs1).1, y ∈ pc.1.set :=
  View.cover_of_tiledL (kernelRun0_C (F := F) c i arg3 harg3 arg4 harg4 arg5 harg5 arg6 harg6 arg7 harg7 arg8 harg8 hc0 hc1 x0 x1 x2 xs0 xs1).1 S1x128x64.size (by sl_kernel_rfl) y
theorem scover0_C_0 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i) (x0 : Vec F S1x128x64 .f32) (x1 : Vec F S1x256x64 .f32) (x2 : Vec F S1x64x256 .f32) (xs0 : Vec F S128x1 .f32) (xs1 : Vec F S128x64 .f32) (y : S128x1.Idx) :
    ∃ pc ∈ (kernelRun0_C (F := F) c i arg3 harg3 arg4 harg4 arg5 harg5 arg6 harg6 arg7 harg7 arg8 harg8 hc0 hc1 x0 x1 x2 xs0 xs1).2.1, y ∈ pc.1.set :=
  View.cover_of_tiledL (kernelRun0_C (F := F) c i arg3 harg3 arg4 harg4 arg5 harg5 arg6 harg6 arg7 harg7 arg8 harg8 hc0 hc1 x0 x1 x2 xs0 xs1).2.1 S128x1.size (by sl_kernel_rfl) y
theorem scover0_C_1 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i) (x0 : Vec F S1x128x64 .f32) (x1 : Vec F S1x256x64 .f32) (x2 : Vec F S1x64x256 .f32) (xs0 : Vec F S128x1 .f32) (xs1 : Vec F S128x64 .f32) (y : S128x64.Idx) :
    ∃ pc ∈ (kernelRun0_C (F := F) c i arg3 harg3 arg4 harg4 arg5 harg5 arg6 harg6 arg7 harg7 arg8 harg8 hc0 hc1 x0 x1 x2 xs0 xs1).2.2.1, y ∈ pc.1.set :=
  View.cover_of_tiledL (kernelRun0_C (F := F) c i arg3 harg3 arg4 harg4 arg5 harg5 arg6 harg6 arg7 harg7 arg8 harg8 hc0 hc1 x0 x1 x2 xs0 xs1).2.2.1 S128x64.size (by sl_kernel_rfl) y

/-! ## What each case leaves: the stored pieces read back -/

/-- Where nothing is stored into the output block (it is neither written back nor read there): a placeholder. -/
def idleOut : Vec F S1x128x64 .f32 := VO0_3.read (Elt F) (VO0_3.writes (Elt F) VO0_3.junk [])

def soutA_0 (c : Dev nD) (t : Fin cfg0.N) (h0 : t.val % 4 = 0) (h1 : ¬t.val % 4 = 3) : Vec F S128x1 .f32 :=
  VS0_0.read (Elt F) (VS0_0.writes (Elt F) VS0_0.junk (runA m c t h0 h1).1)
def soutA_1 (c : Dev nD) (t : Fin cfg0.N) (h0 : t.val % 4 = 0) (h1 : ¬t.val % 4 = 3) : Vec F S128x64 .f32 :=
  VS0_1.read (Elt F) (VS0_1.writes (Elt F) VS0_1.junk (runA m c t h0 h1).2.1)
def soutB_0 (c : Dev nD) (t : Fin cfg0.N) (h0 : ¬t.val % 4 = 0) (h1 : ¬t.val % 4 = 3) (xs0 : Vec F S128x1 .f32) (xs1 : Vec F S128x64 .f32) : Vec F S128x1 .f32 :=
  VS0_0.read (Elt F) (VS0_0.writes (Elt F) VS0_0.junk (runB m c t h0 h1 xs0 xs1).1)
def soutB_1 (c : Dev nD) (t : Fin cfg0.N) (h0 : ¬t.val % 4 = 0) (h1 : ¬t.val % 4 = 3) (xs0 : Vec F S128x1 .f32) (xs1 : Vec F S128x64 .f32) : Vec F S128x64 .f32 :=
  VS0_1.read (Elt F) (VS0_1.writes (Elt F) VS0_1.junk (runB m c t h0 h1 xs0 xs1).2.1)
def outC_3 (c : Dev nD) (t : Fin cfg0.N) (h0 : ¬t.val % 4 = 0) (h1 : t.val % 4 = 3) (xs0 : Vec F S128x1 .f32) (xs1 : Vec F S128x64 .f32) : Vec F S1x128x64 .f32 :=
  VO0_3.read (Elt F) (VO0_3.writes (Elt F) VO0_3.junk (runC m c t h0 h1 xs0 xs1).1)
def soutC_0 (c : Dev nD) (t : Fin cfg0.N) (h0 : ¬t.val % 4 = 0) (h1 : t.val % 4 = 3) (xs0 : Vec F S128x1 .f32) (xs1 : Vec F S128x64 .f32) : Vec F S128x1 .f32 :=
  VS0_0.read (Elt F) (VS0_0.writes (Elt F) VS0_0.junk (runC m c t h0 h1 xs0 xs1).2.1)
def soutC_1 (c : Dev nD) (t : Fin cfg0.N) (h0 : ¬t.val % 4 = 0) (h1 : t.val % 4 = 3) (xs0 : Vec F S128x1 .f32) (xs1 : Vec F S128x64 .f32) : Vec F S128x64 .f32 :=
  VS0_1.read (Elt F) (VS0_1.writes (Elt F) VS0_1.junk (runC m c t h0 h1 xs0 xs1).2.2.1)

/-! ## What the buffers hold after each point -/

/-- After the body at position `n`: the output block's staging buffer, the running sum of the weights, the running
    weighted sum of the rows. -/
def outsAt0 (c : Dev nD) : (n : ℕ) → n < cfg0.N → Vec F S1x128x64 .f32 × Vec F S128x1 .f32 × Vec F S128x64 .f32
  | 0, hn => (idleOut, soutA_0 m c ⟨0, hn⟩ (Nat.zero_mod _) (show ¬ (0 % 4 = 3) from by decide), soutA_1 m c ⟨0, hn⟩ (Nat.zero_mod _) (show ¬ (0 % 4 = 3) from by decide))
  | n + 1, hn =>
    if h0 : (n + 1) % 4 = 0 then
      if h1 : (n + 1) % 4 = 3 then
        False.elim (by omega)
      else
        (idleOut, soutA_0 m c ⟨n + 1, hn⟩ h0 h1, soutA_1 m c ⟨n + 1, hn⟩ h0 h1)
    else
      if h1 : (n + 1) % 4 = 3 then
        (outC_3 m c ⟨n + 1, hn⟩ h0 h1 (outsAt0 c n (Nat.lt_of_succ_lt hn)).2.1 (outsAt0 c n (Nat.lt_of_succ_lt hn)).2.2,
         soutC_0 m c ⟨n + 1, hn⟩ h0 h1 (outsAt0 c n (Nat.lt_of_succ_lt hn)).2.1 (outsAt0 c n (Nat.lt_of_succ_lt hn)).2.2,
         soutC_1 m c ⟨n + 1, hn⟩ h0 h1 (outsAt0 c n (Nat.lt_of_succ_lt hn)).2.1 (outsAt0 c n (Nat.lt_of_succ_lt hn)).2.2)
      else
        (idleOut,
         soutB_0 m c ⟨n + 1, hn⟩ h0 h1 (outsAt0 c n (Nat.lt_of_succ_lt hn)).2.1 (outsAt0 c n (Nat.lt_of_succ_lt hn)).2.2,
         soutB_1 m c ⟨n + 1, hn⟩ h0 h1 (outsAt0 c n (Nat.lt_of_succ_lt hn)).2.1 (outsAt0 c n (Nat.lt_of_succ_lt hn)).2.2)

/-- The point before `t`'s position. -/
abbrev prevLt (t : Fin cfg0.N) : t.val - 1 < cfg0.N := Nat.lt_of_le_of_lt (Nat.sub_le _ _) t.isLt

theorem outsAt0_A (c : Dev nD) (t : Fin cfg0.N) (h0 : t.val % 4 = 0) (h1 : ¬t.val % 4 = 3) :
    outsAt0 m c t.val t.isLt = (idleOut, soutA_0 m c t h0 h1, soutA_1 m c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (idleOut,
      soutB_0 m c t h0 h1 (outsAt0 m c (t.val - 1) (prevLt t)).2.1 (outsAt0 m c (t.val - 1) (prevLt t)).2.2,
      soutB_1 m c t h0 h1 (outsAt0 m c (t.val - 1) (prevLt t)).2.1 (outsAt0 m c (t.val - 1) (prevLt t)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (outC_3 m c t h0 h1 (outsAt0 m c (t.val - 1) (prevLt t)).2.1 (outsAt0 m c (t.val - 1) (prevLt t)).2.2,
      soutC_0 m c t h0 h1 (outsAt0 m c (t.val - 1) (prevLt t)).2.1 (outsAt0 m c (t.val - 1) (prevLt t)).2.2,
      soutC_1 m c t h0 h1 (outsAt0 m c (t.val - 1) (prevLt t)).2.1 (outsAt0 m c (t.val - 1) (prevLt t)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the two scratch buffers at anything; afterwards
    each at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The arrays as the region finds them; after the body each input's buffer at its block and the output's at
    `outsAt0`; the two windows on the input array hold its two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which case the point is in; the
    invariant hands the body the accumulators at what the point before left and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · have h1 : ¬t.val % 4 = 3 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold soutA_0 soutA_1; (try dsimp only)
    by_cases hz : t.val = 0
    · rw [PhiS_castSucc m c t, PhiS_zero m c _ _ hz, scoped0_eq]
      iintro ⟨⟨HS0, HS1⟩, Ho, ⟨%d0, H0⟩, ⟨%d1, H1⟩, ⟨%d2, H2⟩, ⟨%d3, H3⟩⟩
      iapply ((runA m c t h0 h1).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, HS1⟩, Ho, ⟨%d0, H0⟩, ⟨%d1, H1⟩, ⟨%d2, H2⟩, ⟨%d3, H3⟩⟩
      iapply ((runA m c t h0 h1).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold outC_3 soutC_0 soutC_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩⟩
      iapply ((runC m c t h0 h1 _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        · unfold owns; iexists _; isplitr
          swap; · iexact HS1
          ipureintro; exact View.read_writes_of_cover _ _ _ _ _ (scover0_C_1 c _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold soutB_0 soutB_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩⟩
      iapply ((runB m c t h0 h1 _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        · unfold owns; iexists _; isplitr
          swap; · iexact HS1
          ipureintro; exact View.read_writes_of_cover _ _ _ _ _ (scover0_B_1 c _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Kernel.Run.lean ====
/-
  The launch: the two windows on the input array take its two half shares, the scratch buffers enter and leave the
  invariant at some contents, and every weakly fair execution terminates with each window's array at what the
  write-backs leave; in particular the input array ends unchanged.
-/
import proofs.«151206_j77970836292245_2_alg».proof.Proof.Kernel.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant is the scratch buffers at some contents. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back, their named contents forgotten. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scoped0_eq]
  iintro ⟨HS0, HS1⟩
  isplitl [HS0]
  · iexists _; iexact HS0
  iexists _; iexact HS1

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 128 := N_0; omega)

/-- The input array's full share is dealt to the two windows on it as its two halves; the transposed array and the
    result array go whole to their one window each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have himg : (Finset.univ.image (Pipeline.arrRef spec0)) = ({main_arg0, main_v0, main_v1} : Finset (Ref sig .tc)) := by decide
  have e : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1)) := by
    unfold Pipeline.arrBufs
    rw [himg, BI.bigSep_insert (by decide), BI.bigSep_insert (by decide), BI.bigSep_singleton]
    rfl
  rw [e]
  have hR : (dats m 0 c).arrays ((dats m 0 c).arrAt · 0)
      = bigSep Finset.univ fun w : Fin 4 => (((c : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [hR, bigSep_W0]
  have s0 : (dats m 0 c).share 0 = fullShare.left := rfl
  have s1 : (dats m 0 c).share 1 = fullShare.right := rfl
  have s2 : (dats m 0 c).share 2 = fullShare := rfl
  have s3 : (dats m 0 c).share 3 = fullShare := rfl
  have a0 : ∀ w, (dats m 0 c).arrAt w 0 = V m c (Pipeline.arrRef spec0 w) := fun w => A_eq m c w
  rw [s0, s1, s2, s3, a0 0, a0 1, a0 2, a0 3]
  iintro ⟨H0, H2, H3⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  iexact H3

set_option backward.isDefEq.respectTransparency.types false in
/-- Every weakly fair execution of @main terminates, and every window's array ends at what the write-backs leave. -/
theorem run_main : θ_run defs (onTc (τ := τ) (main (F := F))) ⟨m, fun _ => 0, ρ⟩
    (fun r => ∀ c : Dev nD, ∀ w, r.2.mem ((spec0 w).arr.view.loc (c.tc : Thread nD τ)) = (dats m 0 c).arrAt w cfg0.N) :=
  Pipeline.θ_run_shared_track cfgs (dats m) (0 : Fin 1) defs₀ Variants.none cellOf_inj winFacts₀0 block_pos0 arr_whole0 stage_whole0 m ρ main
    (fun c => (body_obligation m c).loose) (fun _ _ => rfl) (V m) (hmain m Variants.none) (hsplit m) (hin m) (hout m)

/-- The frame: the program runs to the end, faults nowhere, and leaves its input array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans ((A_eq m c 0).trans (V_main_arg0 m c)))) (run_main m ρ)

end Cert.Kernel.Hand

end
-- ==== Proof.KernelIdeal.Entry.lean ====
/-
  The region's surroundings: what the arrays hold when the region is entered (the input, and its transpose
  written by the one host operation before the region), each window's block at a grid point, the two conditions
  of the body (first key block, last key block) in closed form over the 128 grid points (batch, query block, key
  block; the key block is the point's number modulo 4), and where the output window is idle.
-/
import proofs.«151206_j77970836292245_2_alg».proof.Proof.Gen.KernelIdeal.Launch
import proofs.«151206_j77970836292245_2_alg».proof.Proof.Gen.KernelIdeal.Skeleton
import proofs.«151206_j77970836292245_2_alg».proof.Proof.Gen.KernelIdeal.Points
import proofs.«151206_j77970836292245_2_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the transpose. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the transpose, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose leaves the input array as it was. -/
theorem V_main_arg0 (c : Dev nD) : V m c main_arg0 = m ((c : Thread nD τ).loc main_arg0) := by
  dsimp only [V, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key block": the condition under which the accumulators are reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last key block": the condition under which the quotient is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last key block nothing is stored into the output window, and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last key block the output window is stored into. -/
theorem liveAt0_3 : ∀ t : Fin cfg0.N, cond0_1 (grid0.coords t) → cfg0.idle 3 (grid0.coords t) = false := by decide +kernel

/-! ## The staging and scratch memrefs -/

abbrev VO0_3 : View sig .tc .vmem S1x128x64 .f32 := (Memref.whole cc0_stg3_0 : Memref sig .tc .vmem S1x128x64 .f32).view
abbrev ms0_0 (t : Fin cfg0.N) : Memref sig .tc .vmem S1x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x64 .f32 := win0_3.stage (cfg0.slots t 3)
abbrev hs0_3 (t : Fin cfg0.N) : (ms0_3 t).IsWhole := hstage0_3 ((cfg0.slots t 3).cast nbuf0_3)
/-- The two scratch operands: the running sum of the weights and the running weighted sum of the rows. -/
abbrev scM0_0 : Memref sig .tc .vmem S128x1 .f32 := Memref.whole cc0_scratch0
abbrev scM0_1 : Memref sig .tc .vmem S128x64 .f32 := Memref.whole cc0_scratch1
abbrev VS0_0 : View sig .tc .vmem S128x1 .f32 := scM0_0.view
abbrev VS0_1 : View sig .tc .vmem S128x64 .f32 := scM0_1.view

/-- The scoped buffers that are no staging buffer are the two scratch operands, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Hand

end
-- ==== Proof.KernelIdeal.CaseFirst.lean ====
/-
  The kernel body run at the first key block (the accumulators are reset, then this block's sums are added; nothing is stored into the output).
-/
import proofs.«151206_j77970836292245_2_alg».proof.Proof.KernelIdeal.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first key block (the accumulators are reset, then this block's sums are added; nothing is stored into the output): on whole memrefs, the three inputs' at their blocks, it runs to the continuation holding
    the inputs as they were and each buffer it stored into with the stored pieces written; the pieces are found by the run. -/
noncomputable def kernelRun0_A (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : cond0_0 i) (hc1 : ¬cond0_1 i)
    (x0 : Vec F S1x128x64 .f32) (x1 : Vec F S1x256x64 .f32) (x2 : Vec F S1x64x256 .f32) :
    Σ' (LS0 : List (View.Piece (Elt F) S128x1 .f32)), { LS1 : List (View.Piece (Elt F) S128x64 .f32) //
      ∀ (xi3 : Vec F S1x128x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, fun xi3 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KernelIdeal.CaseMid.lean ====
/-
  The kernel body run at a middle key block (this block's sums are added to what the block before left; nothing is stored into the output).
-/
import proofs.«151206_j77970836292245_2_alg».proof.Proof.KernelIdeal.CaseFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle key block (this block's sums are added to what the block before left; nothing is stored into the output): on whole memrefs, the three inputs' at their blocks, it runs to the continuation holding
    the inputs as they were and each buffer it stored into with the stored pieces written; the pieces are found by the run. -/
noncomputable def kernelRun0_B (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : ¬cond0_1 i)
    (x0 : Vec F S1x128x64 .f32) (x1 : Vec F S1x256x64 .f32) (x2 : Vec F S1x64x256 .f32) (xs0 : Vec F S128x1 .f32) (xs1 : Vec F S128x64 .f32) :
    Σ' (LS0 : List (View.Piece (Elt F) S128x1 .f32)), { LS1 : List (View.Piece (Elt F) S128x64 .f32) //
      ∀ (xi3 : Vec F S1x128x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, fun xi3 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KernelIdeal.CaseLast.lean ====
/-
  The kernel body run at the last key block (this block's sums are added, then the quotient of the two accumulators is stored into the output).
-/
import proofs.«151206_j77970836292245_2_alg».proof.Proof.KernelIdeal.CaseMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last key block (this block's sums are added, then the quotient of the two accumulators is stored into the output): on whole memrefs, the three inputs' at their blocks, it runs to the continuation holding
    the inputs as they were and each buffer it stored into with the stored pieces written; the pieces are found by the run. -/
noncomputable def kernelRun0_C (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i)
    (x0 : Vec F S1x128x64 .f32) (x1 : Vec F S1x256x64 .f32) (x2 : Vec F S1x64x256 .f32) (xs0 : Vec F S128x1 .f32) (xs1 : Vec F S128x64 .f32) :
    Σ' (L3 : List (View.Piece (Elt F) S1x128x64 .f32)) (LS0 : List (View.Piece (Elt F) S128x1 .f32)), { LS1 : List (View.Piece (Elt F) S128x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KernelIdeal.Frame.lean ====
/-
  What the two accumulators and the output block hold after each grid point, the proof data of the pipeline,
  and the body obligation at every point.

  The grid runs batch-major, then query block, then key block; so the key block is the point's number modulo 4. At a
  first key block the accumulators are reset and this block's sums added; at the others this block's sums are added to
  what the point before left; at a last key block the quotient of the two accumulators is stored into the output
  block, which is then written back. The accumulators' contents after a point are named by recursion on the point.
-/
import proofs.«151206_j77970836292245_2_alg».proof.Proof.KernelIdeal.CaseLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)
abbrev runB (c : Dev nD) (t : Fin cfg0.N) (h0 : ¬t.val % 4 = 0) (h1 : ¬t.val % 4 = 3) (xs0 : Vec F S128x1 .f32) (xs1 : Vec F S128x64 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1
abbrev runC (c : Dev nD) (t : Fin cfg0.N) (h0 : ¬t.val % 4 = 0) (h1 : t.val % 4 = 3) (xs0 : Vec F S128x1 .f32) (xs1 : Vec F S128x64 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) xs0 xs1

/-! ## The stored pieces cover their buffers -/

theorem scover0_A_0 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : cond0_0 i) (hc1 : ¬cond0_1 i) (x0 : Vec F S1x128x64 .f32) (x1 : Vec F S1x256x64 .f32) (x2 : Vec F S1x64x256 .f32) (y : S128x1.Idx) :
    ∃ pc ∈ (kernelRun0_A (F := F) c i arg3 harg3 arg4 harg4 arg5 harg5 arg6 harg6 arg7 harg7 arg8 harg8 hc0 hc1 x0 x1 x2).1, y ∈ pc.1.set :=
  View.cover_of_tiledL (kernelRun0_A (F := F) c i arg3 harg3 arg4 harg4 arg5 harg5 arg6 harg6 arg7 harg7 arg8 harg8 hc0 hc1 x0 x1 x2).1 S128x1.size (by sl_kernel_rfl) y
theorem scover0_A_1 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : cond0_0 i) (hc1 : ¬cond0_1 i) (x0 : Vec F S1x128x64 .f32) (x1 : Vec F S1x256x64 .f32) (x2 : Vec F S1x64x256 .f32) (y : S128x64.Idx) :
    ∃ pc ∈ (kernelRun0_A (F := F) c i arg3 harg3 arg4 harg4 arg5 harg5 arg6 harg6 arg7 harg7 arg8 harg8 hc0 hc1 x0 x1 x2).2.1, y ∈ pc.1.set :=
  View.cover_of_tiledL (kernelRun0_A (F := F) c i arg3 harg3 arg4 harg4 arg5 harg5 arg6 harg6 arg7 harg7 arg8 harg8 hc0 hc1 x0 x1 x2).2.1 S128x64.size (by sl_kernel_rfl) y
theorem scover0_B_0 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : ¬cond0_1 i) (x0 : Vec F S1x128x64 .f32) (x1 : Vec F S1x256x64 .f32) (x2 : Vec F S1x64x256 .f32) (xs0 : Vec F S128x1 .f32) (xs1 : Vec F S128x64 .f32) (y : S128x1.Idx) :
    ∃ pc ∈ (kernelRun0_B (F := F) c i arg3 harg3 arg4 harg4 arg5 harg5 arg6 harg6 arg7 harg7 arg8 harg8 hc0 hc1 x0 x1 x2 xs0 xs1).1, y ∈ pc.1.set :=
  View.cover_of_tiledL (kernelRun0_B (F := F) c i arg3 harg3 arg4 harg4 arg5 harg5 arg6 harg6 arg7 harg7 arg8 harg8 hc0 hc1 x0 x1 x2 xs0 xs1).1 S128x1.size (by sl_kernel_rfl) y
theorem scover0_B_1 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : ¬cond0_1 i) (x0 : Vec F S1x128x64 .f32) (x1 : Vec F S1x256x64 .f32) (x2 : Vec F S1x64x256 .f32) (xs0 : Vec F S128x1 .f32) (xs1 : Vec F S128x64 .f32) (y : S128x64.Idx) :
    ∃ pc ∈ (kernelRun0_B (F := F) c i arg3 harg3 arg4 harg4 arg5 harg5 arg6 harg6 arg7 harg7 arg8 harg8 hc0 hc1 x0 x1 x2 xs0 xs1).2.1, y ∈ pc.1.set :=
  View.cover_of_tiledL (kernelRun0_B (F := F) c i arg3 harg3 arg4 harg4 arg5 harg5 arg6 harg6 arg7 harg7 arg8 harg8 hc0 hc1 x0 x1 x2 xs0 xs1).2.1 S128x64.size (by sl_kernel_rfl) y
theorem cover0_C_3 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i) (x0 : Vec F S1x128x64 .f32) (x1 : Vec F S1x256x64 .f32) (x2 : Vec F S1x64x256 .f32) (xs0 : Vec F S128x1 .f32) (xs1 : Vec F S128x64 .f32) (y : S1x128x64.Idx) :
    ∃ pc ∈ (kernelRun0_C (F := F) c i arg3 harg3 arg4 harg4 arg5 harg5 arg6 harg6 arg7 harg7 arg8 harg8 hc0 hc1 x0 x1 x2 xs0 xs1).1, y ∈ pc.1.set :=
  View.cover_of_tiledL (kernelRun0_C (F := F) c i arg3 harg3 arg4 harg4 arg5 harg5 arg6 harg6 arg7 harg7 arg8 harg8 hc0 hc1 x0 x1 x2 xs0 xs1).1 S1x128x64.size (by sl_kernel_rfl) y
theorem scover0_C_0 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i) (x0 : Vec F S1x128x64 .f32) (x1 : Vec F S1x256x64 .f32) (x2 : Vec F S1x64x256 .f32) (xs0 : Vec F S128x1 .f32) (xs1 : Vec F S128x64 .f32) (y : S128x1.Idx) :
    ∃ pc ∈ (kernelRun0_C (F := F) c i arg3 harg3 arg4 harg4 arg5 harg5 arg6 harg6 arg7 harg7 arg8 harg8 hc0 hc1 x0 x1 x2 xs0 xs1).2.1, y ∈ pc.1.set :=
  View.cover_of_tiledL (kernelRun0_C (F := F) c i arg3 harg3 arg4 harg4 arg5 harg5 arg6 harg6 arg7 harg7 arg8 harg8 hc0 hc1 x0 x1 x2 xs0 xs1).2.1 S128x1.size (by sl_kernel_rfl) y
theorem scover0_C_1 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i) (x0 : Vec F S1x128x64 .f32) (x1 : Vec F S1x256x64 .f32) (x2 : Vec F S1x64x256 .f32) (xs0 : Vec F S128x1 .f32) (xs1 : Vec F S128x64 .f32) (y : S128x64.Idx) :
    ∃ pc ∈ (kernelRun0_C (F := F) c i arg3 harg3 arg4 harg4 arg5 harg5 arg6 harg6 arg7 harg7 arg8 harg8 hc0 hc1 x0 x1 x2 xs0 xs1).2.2.1, y ∈ pc.1.set :=
  View.cover_of_tiledL (kernelRun0_C (F := F) c i arg3 harg3 arg4 harg4 arg5 harg5 arg6 harg6 arg7 harg7 arg8 harg8 hc0 hc1 x0 x1 x2 xs0 xs1).2.2.1 S128x64.size (by sl_kernel_rfl) y

/-! ## What each case leaves: the stored pieces read back -/

/-- Where nothing is stored into the output block (it is neither written back nor read there): a placeholder. -/
def idleOut : Vec F S1x128x64 .f32 := VO0_3.read (Elt F) (VO0_3.writes (Elt F) VO0_3.junk [])

def soutA_0 (c : Dev nD) (t : Fin cfg0.N) (h0 : t.val % 4 = 0) (h1 : ¬t.val % 4 = 3) : Vec F S128x1 .f32 :=
  VS0_0.read (Elt F) (VS0_0.writes (Elt F) VS0_0.junk (runA m c t h0 h1).1)
def soutA_1 (c : Dev nD) (t : Fin cfg0.N) (h0 : t.val % 4 = 0) (h1 : ¬t.val % 4 = 3) : Vec F S128x64 .f32 :=
  VS0_1.read (Elt F) (VS0_1.writes (Elt F) VS0_1.junk (runA m c t h0 h1).2.1)
def soutB_0 (c : Dev nD) (t : Fin cfg0.N) (h0 : ¬t.val % 4 = 0) (h1 : ¬t.val % 4 = 3) (xs0 : Vec F S128x1 .f32) (xs1 : Vec F S128x64 .f32) : Vec F S128x1 .f32 :=
  VS0_0.read (Elt F) (VS0_0.writes (Elt F) VS0_0.junk (runB m c t h0 h1 xs0 xs1).1)
def soutB_1 (c : Dev nD) (t : Fin cfg0.N) (h0 : ¬t.val % 4 = 0) (h1 : ¬t.val % 4 = 3) (xs0 : Vec F S128x1 .f32) (xs1 : Vec F S128x64 .f32) : Vec F S128x64 .f32 :=
  VS0_1.read (Elt F) (VS0_1.writes (Elt F) VS0_1.junk (runB m c t h0 h1 xs0 xs1).2.1)
def outC_3 (c : Dev nD) (t : Fin cfg0.N) (h0 : ¬t.val % 4 = 0) (h1 : t.val % 4 = 3) (xs0 : Vec F S128x1 .f32) (xs1 : Vec F S128x64 .f32) : Vec F S1x128x64 .f32 :=
  VO0_3.read (Elt F) (VO0_3.writes (Elt F) VO0_3.junk (runC m c t h0 h1 xs0 xs1).1)
def soutC_0 (c : Dev nD) (t : Fin cfg0.N) (h0 : ¬t.val % 4 = 0) (h1 : t.val % 4 = 3) (xs0 : Vec F S128x1 .f32) (xs1 : Vec F S128x64 .f32) : Vec F S128x1 .f32 :=
  VS0_0.read (Elt F) (VS0_0.writes (Elt F) VS0_0.junk (runC m c t h0 h1 xs0 xs1).2.1)
def soutC_1 (c : Dev nD) (t : Fin cfg0.N) (h0 : ¬t.val % 4 = 0) (h1 : t.val % 4 = 3) (xs0 : Vec F S128x1 .f32) (xs1 : Vec F S128x64 .f32) : Vec F S128x64 .f32 :=
  VS0_1.read (Elt F) (VS0_1.writes (Elt F) VS0_1.junk (runC m c t h0 h1 xs0 xs1).2.2.1)

/-! ## What the buffers hold after each point -/

/-- After the body at position `n`: the output block's staging buffer, the running sum of the weights, the running
    weighted sum of the rows. -/
def outsAt0 (c : Dev nD) : (n : ℕ) → n < cfg0.N → Vec F S1x128x64 .f32 × Vec F S128x1 .f32 × Vec F S128x64 .f32
  | 0, hn => (idleOut, soutA_0 m c ⟨0, hn⟩ (Nat.zero_mod _) (show ¬ (0 % 4 = 3) from by decide), soutA_1 m c ⟨0, hn⟩ (Nat.zero_mod _) (show ¬ (0 % 4 = 3) from by decide))
  | n + 1, hn =>
    if h0 : (n + 1) % 4 = 0 then
      if h1 : (n + 1) % 4 = 3 then
        False.elim (by omega)
      else
        (idleOut, soutA_0 m c ⟨n + 1, hn⟩ h0 h1, soutA_1 m c ⟨n + 1, hn⟩ h0 h1)
    else
      if h1 : (n + 1) % 4 = 3 then
        (outC_3 m c ⟨n + 1, hn⟩ h0 h1 (outsAt0 c n (Nat.lt_of_succ_lt hn)).2.1 (outsAt0 c n (Nat.lt_of_succ_lt hn)).2.2,
         soutC_0 m c ⟨n + 1, hn⟩ h0 h1 (outsAt0 c n (Nat.lt_of_succ_lt hn)).2.1 (outsAt0 c n (Nat.lt_of_succ_lt hn)).2.2,
         soutC_1 m c ⟨n + 1, hn⟩ h0 h1 (outsAt0 c n (Nat.lt_of_succ_lt hn)).2.1 (outsAt0 c n (Nat.lt_of_succ_lt hn)).2.2)
      else
        (idleOut,
         soutB_0 m c ⟨n + 1, hn⟩ h0 h1 (outsAt0 c n (Nat.lt_of_succ_lt hn)).2.1 (outsAt0 c n (Nat.lt_of_succ_lt hn)).2.2,
         soutB_1 m c ⟨n + 1, hn⟩ h0 h1 (outsAt0 c n (Nat.lt_of_succ_lt hn)).2.1 (outsAt0 c n (Nat.lt_of_succ_lt hn)).2.2)

/-- The point before `t`'s position. -/
abbrev prevLt (t : Fin cfg0.N) : t.val - 1 < cfg0.N := Nat.lt_of_le_of_lt (Nat.sub_le _ _) t.isLt

theorem outsAt0_A (c : Dev nD) (t : Fin cfg0.N) (h0 : t.val % 4 = 0) (h1 : ¬t.val % 4 = 3) :
    outsAt0 m c t.val t.isLt = (idleOut, soutA_0 m c t h0 h1, soutA_1 m c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (idleOut,
      soutB_0 m c t h0 h1 (outsAt0 m c (t.val - 1) (prevLt t)).2.1 (outsAt0 m c (t.val - 1) (prevLt t)).2.2,
      soutB_1 m c t h0 h1 (outsAt0 m c (t.val - 1) (prevLt t)).2.1 (outsAt0 m c (t.val - 1) (prevLt t)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (outC_3 m c t h0 h1 (outsAt0 m c (t.val - 1) (prevLt t)).2.1 (outsAt0 m c (t.val - 1) (prevLt t)).2.2,
      soutC_0 m c t h0 h1 (outsAt0 m c (t.val - 1) (prevLt t)).2.1 (outsAt0 m c (t.val - 1) (prevLt t)).2.2,
      soutC_1 m c t h0 h1 (outsAt0 m c (t.val - 1) (prevLt t)).2.1 (outsAt0 m c (t.val - 1) (prevLt t)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the two scratch buffers at anything; afterwards
    each at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The arrays as the region finds them; after the body each input's buffer at its block and the output's at
    `outsAt0`; the two windows on the input array hold its two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which case the point is in; the
    invariant hands the body the accumulators at what the point before left and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · have h1 : ¬t.val % 4 = 3 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold soutA_0 soutA_1; (try dsimp only)
    by_cases hz : t.val = 0
    · rw [PhiS_castSucc m c t, PhiS_zero m c _ _ hz, scoped0_eq]
      iintro ⟨⟨HS0, HS1⟩, Ho, ⟨%d0, H0⟩, ⟨%d1, H1⟩, ⟨%d2, H2⟩, ⟨%d3, H3⟩⟩
      iapply ((runA m c t h0 h1).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, HS1⟩, Ho, ⟨%d0, H0⟩, ⟨%d1, H1⟩, ⟨%d2, H2⟩, ⟨%d3, H3⟩⟩
      iapply ((runA m c t h0 h1).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold outC_3 soutC_0 soutC_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩⟩
      iapply ((runC m c t h0 h1 _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        · unfold owns; iexists _; isplitr
          swap; · iexact HS1
          ipureintro; exact View.read_writes_of_cover _ _ _ _ _ (scover0_C_1 c _ _ _ _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold soutB_0 soutB_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩⟩
      iapply ((runB m c t h0 h1 _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        · unfold owns; iexists _; isplitr
          swap; · iexact HS1
          ipureintro; exact View.read_writes_of_cover _ _ _ _ _ (scover0_B_1 c _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Run.lean ====
/-
  The launch: the two windows on the input array take its two half shares, the scratch buffers enter and leave the
  invariant at some contents, and every weakly fair execution terminates with each window's array at what the
  write-backs leave; in particular the input array ends unchanged.
-/
import proofs.«151206_j77970836292245_2_alg».proof.Proof.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant is the scratch buffers at some contents. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back, their named contents forgotten. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scoped0_eq]
  iintro ⟨HS0, HS1⟩
  isplitl [HS0]
  · iexists _; iexact HS0
  iexists _; iexact HS1

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 128 := N_0; omega)

/-- The input array's full share is dealt to the two windows on it as its two halves; the transposed array and the
    result array go whole to their one window each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have himg : (Finset.univ.image (Pipeline.arrRef spec0)) = ({main_arg0, main_v0, main_v1} : Finset (Ref sig .tc)) := by decide
  have e : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1)) := by
    unfold Pipeline.arrBufs
    rw [himg, BI.bigSep_insert (by decide), BI.bigSep_insert (by decide), BI.bigSep_singleton]
    rfl
  rw [e]
  have hR : (dats m 0 c).arrays ((dats m 0 c).arrAt · 0)
      = bigSep Finset.univ fun w : Fin 4 => (((c : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [hR, bigSep_W0]
  have s0 : (dats m 0 c).share 0 = fullShare.left := rfl
  have s1 : (dats m 0 c).share 1 = fullShare.right := rfl
  have s2 : (dats m 0 c).share 2 = fullShare := rfl
  have s3 : (dats m 0 c).share 3 = fullShare := rfl
  have a0 : ∀ w, (dats m 0 c).arrAt w 0 = V m c (Pipeline.arrRef spec0 w) := fun w => A_eq m c w
  rw [s0, s1, s2, s3, a0 0, a0 1, a0 2, a0 3]
  iintro ⟨H0, H2, H3⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  iexact H3

set_option backward.isDefEq.respectTransparency.types false in
/-- Every weakly fair execution of @main terminates, and every window's array ends at what the write-backs leave. -/
theorem run_main : θ_run defs (onTc (τ := τ) (main (F := F))) ⟨m, fun _ => 0, ρ⟩
    (fun r => ∀ c : Dev nD, ∀ w, r.2.mem ((spec0 w).arr.view.loc (c.tc : Thread nD τ)) = (dats m 0 c).arrAt w cfg0.N) :=
  Pipeline.θ_run_shared_track cfgs (dats m) (0 : Fin 1) defs₀ Variants.none cellOf_inj winFacts₀0 block_pos0 arr_whole0 stage_whole0 m ρ main
    (fun c => (body_obligation m c).loose) (fun _ _ => rfl) (V m) (hmain m Variants.none) (hsplit m) (hin m) (hout m)

/-- The frame: the program runs to the end, faults nowhere, and leaves its input array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans ((A_eq m c 0).trans (V_main_arg0 m c)))) (run_main m ρ)

end Cert.KernelIdeal.Hand

end
-- ==== Proof.KernelIdeal.Pieces.lean ====
/-
  What each case of the kernel body leaves in the two accumulators and in the output block, as the body's
  arithmetic (the payloads) of the input blocks and of the accumulators' contents before.

  Every case ends by adding this key block's sums: the sum of the weights to the first accumulator (the fifth payload)
  and the weighted sum of the rows to the second (the sixth). At a first key block the accumulators are first reset
  (the second and third payloads, the zero arrays) and what is added to is what was just stored; at a last key block
  the quotient (the first payload) of the two accumulators just stored is stored into the output block. Each buffer is
  stored into through its whole shape at zero offsets, so what the stores leave is the last store's payload, and a load
  of a buffer through its whole shape reads its contents.
-/
import proofs.«151206_j77970836292245_2_alg».proof.Proof.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Zero offsets, however they are spelt -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stored pieces of each run, for any memrefs and blocks -/

/-- A middle key block: the first accumulator is left at its contents plus this block's sum of the weights. -/
theorem canonB_0 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : ¬cond0_1 i) (x0 : Vec F S1x128x64 .f32) (x1 : Vec F S1x256x64 .f32) (x2 : Vec F S1x64x256 .f32) (xs0 : Vec F S128x1 .f32) (xs1 : Vec F S128x64 .f32) :
    View.canon (kernelRun0_B (F := F) c i arg3 harg3 arg4 harg4 arg5 harg5 arg6 harg6 arg7 harg7 arg8 harg8 hc0 hc1 x0 x1 x2 xs0 xs1).1 = k0_pay5 x0 x2 xs0 := by
  unfold kernelRun0_B
  dsimp only
  rw [View.canon_unit_zero (S := S128x1) hz2]
  simp only [View.readAt_eq_ld, harg3.read_unread, harg5.read_unread, harg7.read_unread, View.ld_unit_zero (S := S1x128x64) hz3, View.ld_unit_zero (S := S1x256x64) hz3, View.ld_unit_zero (S := S1x64x256) hz3,
    View.ld_unit_zero (S := S128x1) hz2]

/-- A middle key block: the second accumulator is left at its contents plus this block's weighted sum of the rows. -/
theorem canonB_1 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : ¬cond0_1 i) (x0 : Vec F S1x128x64 .f32) (x1 : Vec F S1x256x64 .f32) (x2 : Vec F S1x64x256 .f32) (xs0 : Vec F S128x1 .f32) (xs1 : Vec F S128x64 .f32) :
    View.canon (kernelRun0_B (F := F) c i arg3 harg3 arg4 harg4 arg5 harg5 arg6 harg6 arg7 harg7 arg8 harg8 hc0 hc1 x0 x1 x2 xs0 xs1).2.1 = k0_pay6 x0 x1 x2 xs1 := by
  unfold kernelRun0_B
  dsimp only
  rw [View.canon_unit_zero (S := S128x64) hz2]
  simp only [View.readAt_eq_ld, harg3.read_unread, harg4.read_unread, harg5.read_unread, harg8.read_unread, View.ld_unit_zero (S := S1x128x64) hz3, View.ld_unit_zero (S := S1x256x64) hz3, View.ld_unit_zero (S := S1x64x256) hz3,
    View.ld_unit_zero (S := S128x64) hz2]

/-- A first key block: the first accumulator is reset, read back, and left at the zero array plus this block's sum
    of the weights. -/
theorem canonA_0 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : cond0_0 i) (hc1 : ¬cond0_1 i) (x0 : Vec F S1x128x64 .f32) (x1 : Vec F S1x256x64 .f32) (x2 : Vec F S1x64x256 .f32) :
    View.canon (kernelRun0_A (F := F) c i arg3 harg3 arg4 harg4 arg5 harg5 arg6 harg6 arg7 harg7 arg8 harg8 hc0 hc1 x0 x1 x2).1 = k0_pay5 x0 x2 (k0_pay2 (F := F)) := by
  unfold kernelRun0_A
  dsimp only
  sl_unfold_words
  rw [View.canon_cons_unit_zero (S := S128x1) hz2, View.readCov_unit_zero (S := S128x1) _ hz2]
  simp only [View.readAt_eq_ld, harg3.read_unread, harg5.read_unread, View.ld_unit_zero (S := S1x128x64) hz3, View.ld_unit_zero (S := S1x256x64) hz3, View.ld_unit_zero (S := S1x64x256) hz3]

/-- A first key block: the second accumulator is reset, read back, and left at the zero array plus this block's
    weighted sum of the rows. -/
theorem canonA_1 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : cond0_0 i) (hc1 : ¬cond0_1 i) (x0 : Vec F S1x128x64 .f32) (x1 : Vec F S1x256x64 .f32) (x2 : Vec F S1x64x256 .f32) :
    View.canon (kernelRun0_A (F := F) c i arg3 harg3 arg4 harg4 arg5 harg5 arg6 harg6 arg7 harg7 arg8 harg8 hc0 hc1 x0 x1 x2).2.1 = k0_pay6 x0 x1 x2 (k0_pay3 (F := F)) := by
  unfold kernelRun0_A
  dsimp only
  sl_unfold_words
  rw [View.canon_cons_unit_zero (S := S128x64) hz2, View.readCov_unit_zero (S := S128x64) _ hz2]
  simp only [View.readAt_eq_ld, harg3.read_unread, harg4.read_unread, harg5.read_unread, View.ld_unit_zero (S := S1x128x64) hz3, View.ld_unit_zero (S := S1x256x64) hz3, View.ld_unit_zero (S := S1x64x256) hz3]

/-- A last key block: the first accumulator, as at a middle one. -/
theorem canonC_0 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i) (x0 : Vec F S1x128x64 .f32) (x1 : Vec F S1x256x64 .f32) (x2 : Vec F S1x64x256 .f32) (xs0 : Vec F S128x1 .f32) (xs1 : Vec F S128x64 .f32) :
    View.canon (kernelRun0_C (F := F) c i arg3 harg3 arg4 harg4 arg5 harg5 arg6 harg6 arg7 harg7 arg8 harg8 hc0 hc1 x0 x1 x2 xs0 xs1).2.1 = k0_pay5 x0 x2 xs0 := by
  unfold kernelRun0_C
  dsimp only
  sl_unfold_words
  rw [View.canon_unit_zero (S := S128x1) hz2]
  simp only [View.readAt_eq_ld, harg3.read_unread, harg5.read_unread, harg7.read_unread, View.ld_unit_zero (S := S1x128x64) hz3, View.ld_unit_zero (S := S1x256x64) hz3, View.ld_unit_zero (S := S1x64x256) hz3,
    View.ld_unit_zero (S := S128x1) hz2]

/-- A last key block: the second accumulator, as at a middle one. -/
theorem canonC_1 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i) (x0 : Vec F S1x128x64 .f32) (x1 : Vec F S1x256x64 .f32) (x2 : Vec F S1x64x256 .f32) (xs0 : Vec F S128x1 .f32) (xs1 : Vec F S128x64 .f32) :
    View.canon (kernelRun0_C (F := F) c i arg3 harg3 arg4 harg4 arg5 harg5 arg6 harg6 arg7 harg7 arg8 harg8 hc0 hc1 x0 x1 x2 xs0 xs1).2.2.1 = k0_pay6 x0 x1 x2 xs1 := by
  unfold kernelRun0_C
  dsimp only
  sl_unfold_words
  rw [View.canon_unit_zero (S := S128x64) hz2]
  simp only [View.readAt_eq_ld, harg3.read_unread, harg4.read_unread, harg5.read_unread, harg8.read_unread, View.ld_unit_zero (S := S1x128x64) hz3, View.ld_unit_zero (S := S1x256x64) hz3, View.ld_unit_zero (S := S1x64x256) hz3,
    View.ld_unit_zero (S := S128x64) hz2]

/-- A last key block: the output block is left at the quotient of the two accumulators as just stored. -/
theorem canonC_3 (c : Dev nD) (i : grid0.Coords) (arg3 : Memref sig .tc .vmem S1x128x64 .f32) (harg3 : arg3.IsWhole) (arg4 : Memref sig .tc .vmem S1x256x64 .f32) (harg4 : arg4.IsWhole) (arg5 : Memref sig .tc .vmem S1x64x256 .f32) (harg5 : arg5.IsWhole) (arg6 : Memref sig .tc .vmem S1x128x64 .f32) (harg6 : arg6.IsWhole) (arg7 : Memref sig .tc .vmem S128x1 .f32) (harg7 : arg7.IsWhole) (arg8 : Memref sig .tc .vmem S128x64 .f32) (harg8 : arg8.IsWhole) (hc0 : ¬cond0_0 i) (hc1 : cond0_1 i) (x0 : Vec F S1x128x64 .f32) (x1 : Vec F S1x256x64 .f32) (x2 : Vec F S1x64x256 .f32) (xs0 : Vec F S128x1 .f32) (xs1 : Vec F S128x64 .f32) :
    View.canon (kernelRun0_C (F := F) c i arg3 harg3 arg4 harg4 arg5 harg5 arg6 harg6 arg7 harg7 arg8 harg8 hc0 hc1 x0 x1 x2 xs0 xs1).1
      = k0_pay1 (k0_pay6 x0 x1 x2 xs1) (k0_pay5 x0 x2 xs0) := by
  unfold kernelRun0_C
  dsimp only
  sl_unfold_words
  rw [View.canon_unit_zero (S := S1x128x64) hz3, View.readCov_unit_zero (S := S128x64) _ hz2,
    View.readCov_unit_zero (S := S128x1) _ hz2]
  simp only [View.readAt_eq_ld, harg3.read_unread, harg4.read_unread, harg5.read_unread, harg7.read_unread,
    harg8.read_unread, View.ld_unit_zero (S := S1x128x64) hz3, View.ld_unit_zero (S := S1x256x64) hz3, View.ld_unit_zero (S := S1x64x256) hz3, View.ld_unit_zero (S := S128x1) hz2, View.ld_unit_zero (S := S128x64) hz2]

/-! ## At a grid point -/

theorem soutA_0_eq (c : Dev nD) (t : Fin cfg0.N) (h0 : t.val % 4 = 0) (h1 : ¬t.val % 4 = 3) :
    soutA_0 m c t h0 h1 = k0_pay5 (iblk m c 0 t) (iblk m c 2 t) (k0_pay2 (F := F)) := by
  unfold soutA_0
  exact (View.read_writes_eq_canon VS0_0 VS0_0.junk _
      (scover0_A_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t))).trans
    (canonA_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t))

theorem soutA_1_eq (c : Dev nD) (t : Fin cfg0.N) (h0 : t.val % 4 = 0) (h1 : ¬t.val % 4 = 3) :
    soutA_1 m c t h0 h1 = k0_pay6 (iblk m c 0 t) (iblk m c 1 t) (iblk m c 2 t) (k0_pay3 (F := F)) := by
  unfold soutA_1
  exact (View.read_writes_eq_canon VS0_1 VS0_1.junk _
      (scover0_A_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t))).trans
    (canonA_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t))

theorem soutB_0_eq (c : Dev nD) (t : Fin cfg0.N) (h0 : ¬t.val % 4 = 0) (h1 : ¬t.val % 4 = 3) (xs0 : Vec F S128x1 .f32) (xs1 : Vec F S128x64 .f32) :
    soutB_0 m c t h0 h1 xs0 xs1 = k0_pay5 (iblk m c 0 t) (iblk m c 2 t) xs0 := by
  unfold soutB_0
  exact (View.read_writes_eq_canon VS0_0 VS0_0.junk _
      (scover0_B_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1)).trans
    (canonB_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1)

theorem soutB_1_eq (c : Dev nD) (t : Fin cfg0.N) (h0 : ¬t.val % 4 = 0) (h1 : ¬t.val % 4 = 3) (xs0 : Vec F S128x1 .f32) (xs1 : Vec F S128x64 .f32) :
    soutB_1 m c t h0 h1 xs0 xs1 = k0_pay6 (iblk m c 0 t) (iblk m c 1 t) (iblk m c 2 t) xs1 := by
  unfold soutB_1
  exact (View.read_writes_eq_canon VS0_1 VS0_1.junk _
      (scover0_B_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1)).trans
    (canonB_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) xs0 xs1)

theorem soutC_0_eq (c : Dev nD) (t : Fin cfg0.N) (h0 : ¬t.val % 4 = 0) (h1 : t.val % 4 = 3) (xs0 : Vec F S128x1 .f32) (xs1 : Vec F S128x64 .f32) :
    soutC_0 m c t h0 h1 xs0 xs1 = k0_pay5 (iblk m c 0 t) (iblk m c 2 t) xs0 := by
  unfold soutC_0
  exact (View.read_writes_eq_canon VS0_0 VS0_0.junk _
      (scover0_C_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) xs0 xs1)).trans
    (canonC_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) xs0 xs1)

theorem soutC_1_eq (c : Dev nD) (t : Fin cfg0.N) (h0 : ¬t.val % 4 = 0) (h1 : t.val % 4 = 3) (xs0 : Vec F S128x1 .f32) (xs1 : Vec F S128x64 .f32) :
    soutC_1 m c t h0 h1 xs0 xs1 = k0_pay6 (iblk m c 0 t) (iblk m c 1 t) (iblk m c 2 t) xs1 := by
  unfold soutC_1
  exact (View.read_writes_eq_canon VS0_1 VS0_1.junk _
      (scover0_C_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) xs0 xs1)).trans
    (canonC_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) xs0 xs1)

theorem outC_3_eq (c : Dev nD) (t : Fin cfg0.N) (h0 : ¬t.val % 4 = 0) (h1 : t.val % 4 = 3) (xs0 : Vec F S128x1 .f32) (xs1 : Vec F S128x64 .f32) :
    outC_3 m c t h0 h1 xs0 xs1
      = k0_pay1 (k0_pay6 (iblk m c 0 t) (iblk m c 1 t) (iblk m c 2 t) xs1) (k0_pay5 (iblk m c 0 t) (iblk m c 2 t) xs0) := by
  unfold outC_3
  exact (View.read_writes_eq_canon VO0_3 VO0_3.junk _
      (cover0_C_3 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) xs0 xs1)).trans
    (canonC_3 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) xs0 xs1)

end Cert.KernelIdeal.Hand

end
-- ==== Proof.KernelIdeal.Payloads.lean ====
/-
  The kernel body's arithmetic read at an index, on the extended reals.

  One step of the body sees a block of 128 query rows `Q` ([1, 128, 64]), a block of 256 key rows transposed `Kᵀ`
  ([1, 64, 256]) and the same 256 rows as values `V` ([1, 256, 64]). It forms the weights
      w[p, q] = exp (Σ_d tanh (Q[p, d] + Kᵀ[d, q])),
  adds their row sums Σ_q w[p, q] to a column accumulator [128, 1] and the products Σ_q w[p, q] · V[q, d] to an
  accumulator [128, 64]; both accumulators start at zero, and the last step divides the second by the first.
  Each theorem below reads one of these values at explicit coordinates: the shape casts and broadcasts are followed
  coordinate by coordinate (the row-major position of an index decides where a cast reads), a sum along one axis from
  the zero accumulator is the finite sum over that axis's coordinate, a change of float format is the identity, and the
  matrix product into a zero accumulator is the sum over the one contracted coordinate.
-/
import proofs.«151206_j77970836292245_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable {α : Type}

/-! ## Layout operations at an index: the column forms -/

/-- A column `[a, 1]` broadcast to `[a, b]` reads, at `(p, c)`, the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## Sums along the middle or last axis at an index -/

/-- A float sum over axis 1 of an `[a, b, c]` array into `[a, c]`, from the zero accumulator, is at `(i, k)` the sum
    over `j` of the source at `(i, j, k)`. -/
theorem sum_axis1_abc_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src ?_
  funext ax
  apply Fin.ext
  match ax with
  | ⟨0, _⟩ => rfl
  | ⟨1, _⟩ => rfl
  | ⟨2, _⟩ => rfl

/-- A float sum over axis 1 of an `[a, b]` array into `[a]`, from the zero accumulator, is at `i` the sum over `j`
    of the source at `(i, j)`. -/
theorem sum_axis1_ab_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  refine Finset.sum_congr rfl fun j _ => congrArg src ?_
  funext ax
  apply Fin.ext
  match ax with
  | ⟨0, _⟩ => rfl
  | ⟨1, _⟩ => rfl

/-! ## The pointwise transcendental operations at an index -/

theorem tanh_apply {s : Shape} {φ : FTy} (a : FVec Ideal s φ) (i : s.Idx) :
    Idealize.ShloMosaic.tanh a i = Ideal.tanh (a i) := rfl

theorem exp_apply {s : Shape} {φ : FTy} (a : FVec Ideal s φ) (i : s.Idx) :
    Idealize.ShloMosaic.exp a i = Ideal.exp (a i) := rfl

/-! ## The payloads -/

/-- The normalisation the last key block applies: the accumulated weighted sum over the accumulated weight. -/
theorem pay1_apply (v35 : Vec Ideal S128x64 .f32) (v36 : Vec Ideal S128x1 .f32) (p : Fin 128) (d : Fin 64) :
    k0_pay1 (F := Ideal) v35 v36 (ix3 0 p d) = Ideal.div (v35 (ix2 p d)) (v36 (ix2 p 0)) := by
  unfold k0_pay1
  rw [shapeCast_ab_1ab_apply, divf_apply, broadcastTo_a1_ab_apply]

/-- The weight accumulator starts at zero. -/
theorem pay2_apply (p : Fin 128) : k0_pay2 (F := Ideal) (ix2 p 0) = 0 := by
  unfold k0_pay2
  rw [shapeCast_self, broadcast_apply]
  exact Ideal.ofBits_zero_f32

/-- The weighted-sum accumulator starts at zero. -/
theorem pay3_apply (p : Fin 128) (d : Fin 64) : k0_pay3 (F := Ideal) (ix2 p d) = 0 := by
  unfold k0_pay3
  rw [shapeCast_self, broadcast_apply]
  exact Ideal.ofBits_zero_f32

/-- The weights of one query block against one key block: the exponential of the additive score,
    `exp (Σ_d tanh (query[p, d] + keyᵀ[d, q]))`. -/
theorem pay4_apply (v3 : Vec Ideal S1x128x64 .f32) (v7 : Vec Ideal S1x64x256 .f32) (p : Fin 128) (q : Fin 256) :
    k0_pay4 (F := Ideal) v3 v7 (ix2 p q) = Ideal.exp (∑ d : Fin 64, Ideal.tanh (v3 (ix3 0 p d) + v7 (ix3 0 d q))) := by
  unfold k0_pay4
  rw [exp_apply]
  refine congrArg Ideal.exp ?_
  refine (sum_axis1_abc_apply _ _ _ _ p q).trans ?_
  refine Finset.sum_congr rfl fun d _ => ?_
  rw [tanh_apply, addf_apply, broadcastTo_ab1_abc_apply, broadcastTo_1bc_abc_apply, shapeCast_ab_ab1_apply,
    shapeCast_1ab_ab_apply, shapeCast_shapeCast]

/-- The weight accumulator gains the key block's weights summed over the block's keys. -/
theorem pay5_apply (v3 : Vec Ideal S1x128x64 .f32) (v7 : Vec Ideal S1x64x256 .f32) (v17 : Vec Ideal S128x1 .f32) (p : Fin 128) :
    k0_pay5 (F := Ideal) v3 v7 v17 (ix2 p 0)
      = v17 (ix2 p 0) + ∑ q : Fin 256, k0_pay4 (F := Ideal) v3 v7 (ix2 p q) := by
  unfold k0_pay5
  rw [shapeCast_self, addf_apply, shapeCast_a_a1_apply]
  exact congrArg (v17 (ix2 p 0) + ·) (sum_axis1_ab_apply _ _ _ _ p)

/-- The output row of the weights-times-values product is the row of the left operand. -/
theorem dot_lhs_0 (j : S128x64.Idx) (k : dot_S128x256_S256x64_S128x64_1_0_0_1_n_n.contr.Idx) :
    (dot_S128x256_S256x64_S128x64_1_0_0_1_n_n.lhsIdx j k 0).val = (j 0).val := by
  unfold DotDims.lhsIdx
  rw [dif_neg (show ¬(0 : Fin S128x256.rank) ∈ dot_S128x256_S256x64_S128x64_1_0_0_1_n_n.lhsBatch by decide),
    dif_pos (show (0 : Fin S128x256.rank) ∈ dot_S128x256_S256x64_S128x64_1_0_0_1_n_n.lhsNonContracting by decide)]
  rfl

/-- The left operand's column is the contraction index. -/
theorem dot_lhs_1 (j : S128x64.Idx) (k : dot_S128x256_S256x64_S128x64_1_0_0_1_n_n.contr.Idx) :
    (dot_S128x256_S256x64_S128x64_1_0_0_1_n_n.lhsIdx j k 1).val = (k ⟨0, by decide⟩).val :=
  dot_S128x256_S256x64_S128x64_1_0_0_1_n_n.lhsIdx_val_of_single rfl j k

/-- The right operand's row is the contraction index. -/
theorem dot_rhs_0 (j : S128x64.Idx) (k : dot_S128x256_S256x64_S128x64_1_0_0_1_n_n.contr.Idx) :
    (dot_S128x256_S256x64_S128x64_1_0_0_1_n_n.rhsIdx j k 0).val = (k ⟨0, by decide⟩).val :=
  dot_S128x256_S256x64_S128x64_1_0_0_1_n_n.rhsIdx_val_of_single rfl j k

/-- The output column is the column of the right operand. -/
theorem dot_rhs_1 (j : S128x64.Idx) (k : dot_S128x256_S256x64_S128x64_1_0_0_1_n_n.contr.Idx) :
    (dot_S128x256_S256x64_S128x64_1_0_0_1_n_n.rhsIdx j k 1).val = (j 1).val := by
  unfold DotDims.rhsIdx
  rw [dif_neg (show ¬(1 : Fin S256x64.rank) ∈ dot_S128x256_S256x64_S128x64_1_0_0_1_n_n.rhsBatch by decide),
    dif_pos (show (1 : Fin S256x64.rank) ∈ dot_S128x256_S256x64_S128x64_1_0_0_1_n_n.rhsNonContracting by decide)]
  rfl

/-- The weighted-sum accumulator gains the key block's weights times the block's value rows. -/
theorem pay6_apply (v3 : Vec Ideal S1x128x64 .f32) (v5 : Vec Ideal S1x256x64 .f32) (v7 : Vec Ideal S1x64x256 .f32)
    (v26 : Vec Ideal S128x64 .f32) (p : Fin 128) (d : Fin 64) :
    k0_pay6 (F := Ideal) v3 v5 v7 v26 (ix2 p d)
      = v26 (ix2 p d) + ∑ q : Fin 256, k0_pay4 (F := Ideal) v3 v7 (ix2 p q) * v5 (ix3 0 q d) := by
  unfold k0_pay6
  rw [shapeCast_self, addf_apply]
  refine congrArg (v26 (ix2 p d) + ·) ?_
  simp only [matmul]
  rw [Ideal.matmul_constant_zero_apply,
    ← Equiv.sum_comp (contrEquiv1 dot_S128x256_S256x64_S128x64_1_0_0_1_n_n 256 rfl rfl).symm]
  refine Finset.sum_congr rfl fun q _ => ?_
  have hq := contrEquiv1_symm_val dot_S128x256_S256x64_S128x64_1_0_0_1_n_n 256 rfl rfl q
  have el : dot_S128x256_S256x64_S128x64_1_0_0_1_n_n.lhsIdx (ix2 p d)
      ((contrEquiv1 dot_S128x256_S256x64_S128x64_1_0_0_1_n_n 256 rfl rfl).symm q) = ix2 p q :=
    funext fun a => Fin.ext (by
      match a with
      | ⟨0, _⟩ => exact dot_lhs_0 _ _
      | ⟨1, _⟩ => exact (dot_lhs_1 _ _).trans hq)
  have er : dot_S128x256_S256x64_S128x64_1_0_0_1_n_n.rhsIdx (ix2 p d)
      ((contrEquiv1 dot_S128x256_S256x64_S128x64_1_0_0_1_n_n 256 rfl rfl).symm q) = ix2 q d :=
    funext fun a => Fin.ext (by
      match a with
      | ⟨0, _⟩ => exact (dot_rhs_0 _ _).trans hq
      | ⟨1, _⟩ => exact dot_rhs_1 _ _)
  rw [el, er, truncf_apply, truncf_apply, shapeCast_1ab_ab_apply]

end Cert.KernelIdeal.Pay

end
-- ==== Proof.Spec.lean ====
/-
  Additive self-attention, as one function of the input array.

  For an input x of shape [4, 1024, 64] (batch b, position i, feature d) the additive score of a query
  position i against a key position j is  e(b,i,j) = Σ_d tanh (x[b,i,d] + x[b,j,d]).  The result is the
  score-weighted average of the rows,
      G x [b,i,d] = (Σ_j exp (e(b,i,j)) · x[b,j,d]) / (Σ_j exp (e(b,i,j))),
  on the extended reals, with the operations of the ideal instance (its tanh, exp and quotient).
-/
import Idealize.ShloMosaic.PureOps.Ideal
import Idealize.ShloMosaic.Lib.ValueIdx

noncomputable section

open scoped BigOperators

namespace Cert.Attn

open Idealize.ShloMosaic Idealize.ShloMosaic.ValueIdx

/-- The input's (and the result's) shape. -/
abbrev SX : Shape := ⟨3, ![4, 1024, 64]⟩

/-- The additive score of query position `i` against key position `j` in batch `b`. -/
def score (x : SX.Idx → EReal) (b : Fin 4) (i j : Fin 1024) : EReal :=
  ∑ d : Fin 64, Ideal.tanh (x (ix3 b i d) + x (ix3 b j d))

/-- The unnormalised weight of key position `j` for query position `i`. -/
def wgt (x : SX.Idx → EReal) (b : Fin 4) (i j : Fin 1024) : EReal := Ideal.exp (score x b i j)

/-- The weighted sum of the rows' feature `d`. -/
def num (x : SX.Idx → EReal) (b : Fin 4) (i : Fin 1024) (d : Fin 64) : EReal :=
  ∑ j : Fin 1024, wgt x b i j * x (ix3 b j d)

/-- The sum of the weights. -/
def den (x : SX.Idx → EReal) (b : Fin 4) (i : Fin 1024) : EReal := ∑ j : Fin 1024, wgt x b i j

/-- The attention output: the weighted sum over the sum of the weights. -/
def G (x : SX.Idx → EReal) : SX.Idx → EReal :=
  fun idx => Ideal.div (num x (idx 0) (idx 1) (idx 2)) (den x (idx 0) (idx 1))

theorem G_ix3 (x : SX.Idx → EReal) (b : Fin 4) (i : Fin 1024) (d : Fin 64) :
    G x (ix3 b i d) = Ideal.div (num x b i d) (den x b i) := rfl

/-- Every entry of `x` is a real number. -/
def Finite (x : SX.Idx → EReal) : Prop := ∀ idx, ∃ r : ℝ, x idx = (r : EReal)

end Cert.Attn

end
-- ==== Proof.Tiles.lean ====
/-
  The key rows in four blocks of 256.

  A grid point n < 128 of the [4, 8, 4] grid (batch, query block, key block) works on batch n / 32, on the 128 query
  rows 128 · ((n / 4) % 8) + p and on the 256 key rows 256 · (n % 4) + q. A sum over all 1024 key rows is the sum of the
  four block sums, taken in the order of the blocks from zero: the rows 256 · k + q, k < 4, q < 256, are each row once.
-/
import Idealize.ShloMosaic.PureOps.Ideal
import Idealize.ShloMosaic.Lib.ValueIdx
import proofs.«151206_j77970836292245_2_alg».proof.Proof.Spec

open scoped BigOperators

namespace Cert.Attn

/-- The batch of grid point `n`. -/
def bOf (n : ℕ) (h : n < 128) : Fin 4 := ⟨n / 32, by omega⟩

/-- Row `p` of grid point `n`'s query block, as a row of the whole array. -/
def rowQ (n : ℕ) (p : Fin 128) : Fin 1024 := ⟨128 * ((n / 4) % 8) + p.val, by have := p.isLt; omega⟩

/-- Row `q` of key block `k`, as a row of the whole array (`k < 4` in every use; the remainder keeps the
    definition total). -/
def rowK (k : ℕ) (q : Fin 256) : Fin 1024 := ⟨(256 * k + q.val) % 1024, Nat.mod_lt _ (by decide)⟩

/-- Row `q` of block `k < 4` is row `256 k + q`. -/
theorem rowK_val (k : ℕ) (hk : k < 4) (q : Fin 256) : (rowK k q).val = 256 * k + q.val := by
  show (256 * k + q.val) % 1024 = 256 * k + q.val
  have := q.isLt
  omega

/-- A sum over the 1024 rows is the sum of the four block sums, accumulated from zero in the order of the blocks. -/
theorem sum_blocks {M : Type*} [AddCommMonoid M] (f : Fin 1024 → M) :
    ∑ j : Fin 1024, f j
      = (((0 + ∑ q : Fin 256, f (rowK 0 q)) + ∑ q : Fin 256, f (rowK 1 q)) + ∑ q : Fin 256, f (rowK 2 q))
          + ∑ q : Fin 256, f (rowK 3 q) := by
  have hk : ∀ (k : Fin 4) (q : Fin 256), (finProdFinEquiv (k, q) : Fin 1024) = rowK k.val q := fun k q =>
    Fin.ext (by
      show q.val + 256 * k.val = (256 * k.val + q.val) % 1024
      have := q.isLt
      have := k.isLt
      omega)
  have e : ∑ j : Fin 1024, f j = ∑ x : Fin 4 × Fin 256, f (finProdFinEquiv x) :=
    (Equiv.sum_comp (finProdFinEquiv (m := 4) (n := 256)) f).symm
  rw [e, Fintype.sum_prod_type, Fin.sum_univ_four, zero_add]
  simp only [hk]
  rfl

end Cert.Attn
-- ==== Proof.KernelIdeal.Blocks.lean ====
/-
  The blocks of the four windows read at an index, and the body's sums at a grid point in the specification's terms.

  The grid is [4, 8, 4]: batch, query block, key block; a point t < 128 has batch t / 32, query block (t / 4) % 8 and key
  block t % 4. Window 0 is the point's 128 query rows, window 1 its 256 key rows (as values), both blocks of the input
  x; window 2 is the same 256 key rows as columns of the transpose of x written before the region; window 3 is the
  point's 128 rows of the result. An element of a block lies in its array at block index × block size + the coordinate
  inside the block, per axis; the transpose exchanges the last two coordinates. So the weights the body forms at a
  point are the specification's weights of the point's query rows against its key rows, and its two sums over the
  block's 256 keys are the specification's terms for those rows. Every element of the result lies in the output block of
  the last key block's point of its batch and query block, which writes the block back.
-/
import proofs.«151206_j77970836292245_2_alg».proof.Proof.KernelIdeal.Frame
import proofs.«151206_j77970836292245_2_alg».proof.Proof.KernelIdeal.Payloads
import proofs.«151206_j77970836292245_2_alg».proof.Proof.Tiles
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Idealize.ShloMosaic.ValueIdx

variable {F : FTy → Type} [FloatOps F]

variable (m : (ℓ : Loc nD τ sig) → Buf (Elt F) ℓ)

/-! ## The index maps in closed form -/

theorem idx0 : ∀ t : Fin cfg0.N, win0_0.index t (0 : Fin 3) = t.val / 32 ∧ win0_0.index t (1 : Fin 3) = (t.val / 4) % 8
    ∧ win0_0.index t (2 : Fin 3) = 0 :=
  (by decide +kernel : ∀ t : Fin grid0.N, _)
theorem idx1 : ∀ t : Fin cfg0.N, win0_1.index t (0 : Fin 3) = t.val / 32 ∧ win0_1.index t (1 : Fin 3) = t.val % 4
    ∧ win0_1.index t (2 : Fin 3) = 0 :=
  (by decide +kernel : ∀ t : Fin grid0.N, _)
theorem idx2 : ∀ t : Fin cfg0.N, win0_2.index t (0 : Fin 3) = t.val / 32 ∧ win0_2.index t (1 : Fin 3) = 0
    ∧ win0_2.index t (2 : Fin 3) = t.val % 4 :=
  (by decide +kernel : ∀ t : Fin grid0.N, _)
theorem idx3 : ∀ t : Fin cfg0.N, win0_3.index t (0 : Fin 3) = t.val / 32 ∧ win0_3.index t (1 : Fin 3) = (t.val / 4) % 8
    ∧ win0_3.index t (2 : Fin 3) = 0 :=
  (by decide +kernel : ∀ t : Fin grid0.N, _)

/-- The transpose written before the region, as a function of the input. -/
theorem V_main_v0 (c : Dev nD) :
    (V m c main_v0 : S4x64x1024.Idx → Elt F .f32)
      = transpose S4x64x1024 [0, 2, 1] (m ((c : Thread nD τ).loc main_arg0)) transposes_S4x1024x64_S4x64x1024_0_2_1 := by
  dsimp only [V, hostOps0]; after_results; try rfl

theorem iblk0_apply (c : Dev nD) (t : Fin cfg0.N) (hN : t.val < 128) (p : Fin 128) (d : Fin 64) :
    (iblk m c 0 t : Vec F S1x128x64 .f32) (ix3 0 p d)
      = m ((c : Thread nD τ).loc main_arg0) (ix3 (bOf t.val hN) (rowQ t.val p) d) := by
  obtain ⟨e0, e1, e2⟩ := idx0 t
  unfold iblk
  rw [View.read_apply]
  show V m c main_arg0 _ = _
  rw [V_main_arg0]
  refine congrArg _ ?_
  funext a
  apply Fin.ext
  match a with
  | ⟨0, _⟩ => show win0_0.index t (0 : Fin 3) * 1 + 1 * 0 = t.val / 32; omega
  | ⟨1, _⟩ => show win0_0.index t (1 : Fin 3) * 128 + 1 * p.val = 128 * ((t.val / 4) % 8) + p.val; omega
  | ⟨2, _⟩ => show win0_0.index t (2 : Fin 3) * 64 + 1 * d.val = d.val; omega

theorem iblk1_apply (c : Dev nD) (t : Fin cfg0.N) (hN : t.val < 128) (q : Fin 256) (d : Fin 64) :
    (iblk m c 1 t : Vec F S1x256x64 .f32) (ix3 0 q d)
      = m ((c : Thread nD τ).loc main_arg0) (ix3 (bOf t.val hN) (rowK (t.val % 4) q) d) := by
  obtain ⟨e0, e1, e2⟩ := idx1 t
  unfold iblk
  rw [View.read_apply]
  show V m c main_arg0 _ = _
  rw [V_main_arg0]
  refine congrArg _ ?_
  funext a
  apply Fin.ext
  have hq := q.isLt
  match a with
  | ⟨0, _⟩ => show win0_1.index t (0 : Fin 3) * 1 + 1 * 0 = t.val / 32; omega
  | ⟨1, _⟩ => show win0_1.index t (1 : Fin 3) * 256 + 1 * q.val = (256 * (t.val % 4) + q.val) % 1024; omega
  | ⟨2, _⟩ => show win0_1.index t (2 : Fin 3) * 64 + 1 * d.val = d.val; omega

theorem iblk2_apply (c : Dev nD) (t : Fin cfg0.N) (hN : t.val < 128) (d : Fin 64) (q : Fin 256) :
    (iblk m c 2 t : Vec F S1x64x256 .f32) (ix3 0 d q)
      = m ((c : Thread nD τ).loc main_arg0) (ix3 (bOf t.val hN) (rowK (t.val % 4) q) d) := by
  obtain ⟨e0, e1, e2⟩ := idx2 t
  unfold iblk
  rw [View.read_apply]
  show V m c main_v0 _ = _
  rw [V_main_v0]
  refine Eq.trans (congrArg _ (?_ : _ = ix3 (bOf t.val hN) d (rowK (t.val % 4) q))) (transpose_ix3_021_apply _ _ _ _ _)
  funext a
  apply Fin.ext
  have hq := q.isLt
  match a with
  | ⟨0, _⟩ => show win0_2.index t (0 : Fin 3) * 1 + 1 * 0 = t.val / 32; omega
  | ⟨1, _⟩ => show win0_2.index t (1 : Fin 3) * 64 + 1 * d.val = d.val; omega
  | ⟨2, _⟩ => show win0_2.index t (2 : Fin 3) * 256 + 1 * q.val = (256 * (t.val % 4) + q.val) % 1024; omega

/-! ## The body's values at a grid point, in the specification's terms -/

/-- The weights a grid point forms are the specification's weights of its query rows against its key rows. -/
theorem pay4_point (m : (ℓ : Loc nD τ sig) → Buf (Elt Ideal) ℓ) (c : Dev nD) (t : Fin cfg0.N) (hN : t.val < 128)
    (p : Fin 128) (q : Fin 256) :
    k0_pay4 (F := Ideal) (iblk m c 0 t) (iblk m c 2 t) (ix2 p q)
      = wgt (m ((c : Thread nD τ).loc main_arg0)) (bOf t.val hN) (rowQ t.val p) (rowK (t.val % 4) q) := by
  rw [Pay.pay4_apply]
  unfold wgt score
  refine congrArg Ideal.exp (Finset.sum_congr rfl fun d _ => ?_)
  rw [iblk0_apply m c t hN p d, iblk2_apply m c t hN d q]

/-- The block's contribution to the sum of the weights. -/
theorem blockL_sum (m : (ℓ : Loc nD τ sig) → Buf (Elt Ideal) ℓ) (c : Dev nD) (t : Fin cfg0.N) (hN : t.val < 128)
    (p : Fin 128) :
    ∑ q : Fin 256, k0_pay4 (F := Ideal) (iblk m c 0 t) (iblk m c 2 t) (ix2 p q)
      = ∑ q : Fin 256, wgt (m ((c : Thread nD τ).loc main_arg0)) (bOf t.val hN) (rowQ t.val p) (rowK (t.val % 4) q) :=
  Finset.sum_congr rfl fun q _ => pay4_point m c t hN p q

/-- The block's contribution to the weighted sum of the rows. -/
theorem blockN_sum (m : (ℓ : Loc nD τ sig) → Buf (Elt Ideal) ℓ) (c : Dev nD) (t : Fin cfg0.N) (hN : t.val < 128)
    (p : Fin 128) (d : Fin 64) :
    ∑ q : Fin 256, k0_pay4 (F := Ideal) (iblk m c 0 t) (iblk m c 2 t) (ix2 p q) * (iblk m c 1 t : Vec Ideal S1x256x64 .f32) (ix3 0 q d)
      = ∑ q : Fin 256, wgt (m ((c : Thread nD τ).loc main_arg0)) (bOf t.val hN) (rowQ t.val p) (rowK (t.val % 4) q)
          * m ((c : Thread nD τ).loc main_arg0) (ix3 (bOf t.val hN) (rowK (t.val % 4) q) d) :=
  Finset.sum_congr rfl fun q _ => by rw [pay4_point m c t hN p q, iblk1_apply m c t hN q d]

/-! ## The output window: where a block's element lies, and which point writes an element back -/

/-- Element `(0, p, d)` of grid point `t`'s output block is element `(batch, query row, d)` of the result. -/
theorem out_idx (t : Fin cfg0.N) (hN : t.val < 128) (p : Fin 128) (d : Fin 64) :
    ((cfg0.win 3).blk t).view.emb (ix3 0 p d) = ix3 (bOf t.val hN) (rowQ t.val p) d := by
  obtain ⟨e0, e1, e2⟩ := idx3 t
  funext a
  apply Fin.ext
  match a with
  | ⟨0, _⟩ => show win0_3.index t (0 : Fin 3) * 1 + 1 * 0 = t.val / 32; omega
  | ⟨1, _⟩ => show win0_3.index t (1 : Fin 3) * 128 + 1 * p.val = 128 * ((t.val / 4) % 8) + p.val; omega
  | ⟨2, _⟩ => show win0_3.index t (2 : Fin 3) * 64 + 1 * d.val = d.val; omega

/-- An index of the result is in point `t`'s output block iff each coordinate is in the block's range on its axis. -/
theorem mem_blk3 (t : Fin cfg0.N) (i : S4x1024x64.Idx) :
    i ∈ ((cfg0.win 3).blk t).view.set ↔ ∀ a : Fin 3, win0_3.index t a * S1x128x64.size a ≤ (i a).val
      ∧ (i a).val < win0_3.index t a * S1x128x64.size a + S1x128x64.size a := by
  show i ∈ ((View.whole main_v1).slice (win0_3.rect t)).set ↔ _
  rw [View.set_slice_whole, Rect.mem_set_unit]
  exact Iff.rfl

/-- Every element of the result is in the output block of a point that writes its block back: the last key block's
    point of the element's batch and query block. -/
theorem cover3 : ∀ i : S4x1024x64.Idx, ∃ t : Fin cfg0.N, (cfg0.win 3).flush t = true ∧ i ∈ ((cfg0.win 3).blk t).view.set := by
  intro i
  have hi0 : (i 0).val < 4 := (i 0).isLt
  have hi1 : (i 1).val < 1024 := (i 1).isLt
  have hi2 : (i 2).val < 64 := (i 2).isLt
  have hN' : cfg0.N = 128 := N_0
  have hlt : 32 * (i 0).val + 4 * ((i 1).val / 128) + 3 < cfg0.N := by omega
  refine ⟨⟨32 * (i 0).val + 4 * ((i 1).val / 128) + 3, hlt⟩, ?_, ?_⟩
  · rw [flush0_3]
    show (32 * (i 0).val + 4 * ((i 1).val / 128) + 3) % 4 = 3
    omega
  · rw [mem_blk3]
    obtain ⟨e0, e1, e2⟩ := idx3 ⟨32 * (i 0).val + 4 * ((i 1).val / 128) + 3, hlt⟩
    have hv : (⟨32 * (i 0).val + 4 * ((i 1).val / 128) + 3, hlt⟩ : Fin cfg0.N).val = 32 * (i 0).val + 4 * ((i 1).val / 128) + 3 := rfl
    rw [hv] at e0 e1
    intro a
    match a with
    | ⟨0, _⟩ =>
      show win0_3.index _ (0 : Fin 3) * 1 ≤ (i 0).val ∧ (i 0).val < win0_3.index _ (0 : Fin 3) * 1 + 1
      omega
    | ⟨1, _⟩ =>
      show win0_3.index _ (1 : Fin 3) * 128 ≤ (i 1).val ∧ (i 1).val < win0_3.index _ (1 : Fin 3) * 128 + 128
      omega
    | ⟨2, _⟩ =>
      show win0_3.index _ (2 : Fin 3) * 64 ≤ (i 2).val ∧ (i 2).val < win0_3.index _ (2 : Fin 3) * 64 + 64
      omega

end Cert.KernelIdeal.Hand

end
-- ==== Proof.Partial.lean ====
/-
  The two sums of the attention function taken one key block at a time.

  The 1024 key positions fall into four blocks of 256. Adding the blocks' contributions in order from zero gives,
  after four blocks, the whole sum: addition on the extended reals is associative and commutative with no side
  condition, so no finiteness is needed here.
-/
import proofs.«151206_j77970836292245_2_alg».proof.Proof.Spec
import proofs.«151206_j77970836292245_2_alg».proof.Proof.Tiles

noncomputable section

open scoped BigOperators

namespace Cert.Attn

open Idealize.ShloMosaic Idealize.ShloMosaic.ValueIdx

/-- The sum of the weights over the first `k` key blocks. -/
def accL (x : SX.Idx → EReal) (b : Fin 4) (i : Fin 1024) : ℕ → EReal
  | 0 => 0
  | k + 1 => accL x b i k + ∑ q : Fin 256, wgt x b i (rowK k q)

/-- The weighted sum of the rows' feature `d` over the first `k` key blocks. -/
def accN (x : SX.Idx → EReal) (b : Fin 4) (i : Fin 1024) (d : Fin 64) : ℕ → EReal
  | 0 => 0
  | k + 1 => accN x b i d k + ∑ q : Fin 256, wgt x b i (rowK k q) * x (ix3 b (rowK k q) d)

theorem accL_succ (x : SX.Idx → EReal) (b : Fin 4) (i : Fin 1024) (k : ℕ) :
    accL x b i (k + 1) = accL x b i k + ∑ q : Fin 256, wgt x b i (rowK k q) := rfl

theorem accN_succ (x : SX.Idx → EReal) (b : Fin 4) (i : Fin 1024) (d : Fin 64) (k : ℕ) :
    accN x b i d (k + 1) = accN x b i d k + ∑ q : Fin 256, wgt x b i (rowK k q) * x (ix3 b (rowK k q) d) := rfl

/-- After the four key blocks the running sum of the weights is the whole sum. -/
theorem accL_four (x : SX.Idx → EReal) (b : Fin 4) (i : Fin 1024) : accL x b i 4 = den x b i := by
  unfold den
  rw [sum_blocks (fun j => wgt x b i j)]
  rfl

/-- After the four key blocks the running weighted sum is the whole weighted sum. -/
theorem accN_four (x : SX.Idx → EReal) (b : Fin 4) (i : Fin 1024) (d : Fin 64) : accN x b i d 4 = num x b i d := by
  unfold num
  rw [sum_blocks (fun j => wgt x b i j * x (ix3 b j d))]
  rfl

end Cert.Attn

end
-- ==== Proof.KernelIdeal.Value.lean ====
/-
  What the kernel's result array ends holding, at the ideal instance: the attention function of the input.

  Fix a batch and a query block. Over that pair's four grid points (the four key blocks, in order) the first scratch
  buffer holds, for each of the block's 128 query rows, the sum of the weights exp (score) over the key blocks seen so
  far, and the second the weighted sum of the key rows: each point adds its own block's 256 terms to what the point
  before left, the first one to zero. After the fourth block the two hold the whole sums over the 1024 key
  positions, and the point stores their quotient into the output block, which is written back to the result array at
  the rows of the query block. The 32 written-back blocks tile the result array.
-/
import proofs.«151206_j77970836292245_2_alg».proof.Proof.KernelIdeal.Run
import proofs.«151206_j77970836292245_2_alg».proof.Proof.KernelIdeal.Pieces
import proofs.«151206_j77970836292245_2_alg».proof.Proof.KernelIdeal.Blocks
import proofs.«151206_j77970836292245_2_alg».proof.Proof.Partial
import Idealize.ShloMosaic.Lib.Pipeline.Value

set_option maxRecDepth 16384

noncomputable section

open scoped BigOperators

namespace Cert.KernelIdeal.Hand

open Cert.KernelIdeal Cert.KernelIdeal.Gen Cert.KernelIdeal.Pay Cert.Attn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The input array on core `c`. -/
abbrev xin (c : Dev nD) : SX.Idx → EReal := m ((c : Thread nD τ).loc main_arg0)

/-- One point's step on the running sum of the weights: what was there plus this key block's weights. -/
theorem stepL (c : Dev nD) (t : Fin cfg0.N) (hN : t.val < 128) (p : Fin 128) (xs0 : Vec Ideal S128x1 .f32) :
    k0_pay5 (F := Ideal) (iblk m c 0 t) (iblk m c 2 t) xs0 (ix2 p 0)
      = xs0 (ix2 p 0) + ∑ q : Fin 256, wgt (xin m c) (bOf t.val hN) (rowQ t.val p) (rowK (t.val % 4) q) := by
  rw [pay5_apply, blockL_sum m c t hN p]

/-- One point's step on the running weighted sum of the rows. -/
theorem stepN (c : Dev nD) (t : Fin cfg0.N) (hN : t.val < 128) (p : Fin 128) (d : Fin 64) (xs1 : Vec Ideal S128x64 .f32) :
    k0_pay6 (F := Ideal) (iblk m c 0 t) (iblk m c 1 t) (iblk m c 2 t) xs1 (ix2 p d)
      = xs1 (ix2 p d) + ∑ q : Fin 256, wgt (xin m c) (bOf t.val hN) (rowQ t.val p) (rowK (t.val % 4) q)
          * xin m c (ix3 (bOf t.val hN) (rowK (t.val % 4) q) d) := by
  rw [pay6_apply, blockN_sum m c t hN p d]

/-- The statement carried along the grid: for row `p` of point `t`'s query block, the two accumulators' entries are
    the sums over the first `k` key blocks. -/
def AccAt (c : Dev nD) (t : Fin cfg0.N) (hN : t.val < 128) (p : Fin 128) (k : ℕ)
    (L : Vec Ideal S128x1 .f32) (N : Vec Ideal S128x64 .f32) : Prop :=
  L (ix2 p 0) = accL (xin m c) (bOf t.val hN) (rowQ t.val p) k
    ∧ ∀ d : Fin 64, N (ix2 p d) = accN (xin m c) (bOf t.val hN) (rowQ t.val p) d k

/-- At a first key block the accumulators are reset, so they end at the first block's sums. -/
theorem acc_first (c : Dev nD) (t : Fin cfg0.N) (hN : t.val < 128) (h0 : t.val % 4 = 0) (p : Fin 128) :
    AccAt m c t hN p (t.val % 4 + 1) (outsAt0 m c t.val t.isLt).2.1 (outsAt0 m c t.val t.isLt).2.2 := by
  have h1 : ¬ t.val % 4 = 3 := by omega
  unfold AccAt
  rw [outsAt0_A m c t h0 h1]
  dsimp only
  refine ⟨?_, fun d => ?_⟩
  · rw [soutA_0_eq m c t h0 h1, stepL m c t hN p, pay2_apply, h0]
    rfl
  · rw [soutA_1_eq m c t h0 h1, stepN m c t hN p d, pay3_apply, h0]
    rfl

/-- At any other key block the accumulators grow by this block's sums. -/
theorem acc_next (c : Dev nD) (t : Fin cfg0.N) (hN : t.val < 128) (h0 : ¬ t.val % 4 = 0) (p : Fin 128)
    (ih : AccAt m c t hN p (t.val % 4) (outsAt0 m c (t.val - 1) (prevLt t)).2.1 (outsAt0 m c (t.val - 1) (prevLt t)).2.2) :
    AccAt m c t hN p (t.val % 4 + 1) (outsAt0 m c t.val t.isLt).2.1 (outsAt0 m c t.val t.isLt).2.2 := by
  unfold AccAt at ih ⊢
  obtain ⟨ihL, ihN⟩ := ih
  by_cases h1 : t.val % 4 = 3
  · rw [outsAt0_C m c t h0 h1]
    dsimp only
    refine ⟨?_, fun d => ?_⟩
    · rw [soutC_0_eq m c t h0 h1 (outsAt0 m c (t.val - 1) (prevLt t)).2.1 (outsAt0 m c (t.val - 1) (prevLt t)).2.2,
        stepL m c t hN p, accL_succ, ihL]
    · rw [soutC_1_eq m c t h0 h1 (outsAt0 m c (t.val - 1) (prevLt t)).2.1 (outsAt0 m c (t.val - 1) (prevLt t)).2.2,
        stepN m c t hN p d, accN_succ, ihN d]
  · rw [outsAt0_B m c t h0 h1]
    dsimp only
    refine ⟨?_, fun d => ?_⟩
    · rw [soutB_0_eq m c t h0 h1 (outsAt0 m c (t.val - 1) (prevLt t)).2.1 (outsAt0 m c (t.val - 1) (prevLt t)).2.2,
        stepL m c t hN p, accL_succ, ihL]
    · rw [soutB_1_eq m c t h0 h1 (outsAt0 m c (t.val - 1) (prevLt t)).2.1 (outsAt0 m c (t.val - 1) (prevLt t)).2.2,
        stepN m c t hN p d, accN_succ, ihN d]

/-- What the two accumulators hold after each point, as functions of the input: the sums over the key blocks up to
    the point's own. By induction on the point. -/
theorem acc_eq (c : Dev nD) : ∀ (n : ℕ) (t : Fin cfg0.N), t.val = n → ∀ (hN : t.val < 128) (p : Fin 128),
    AccAt m c t hN p (t.val % 4 + 1) (outsAt0 m c t.val t.isLt).2.1 (outsAt0 m c t.val t.isLt).2.2 := by
  intro n
  induction n with
  | zero =>
    intro t ht hN p
    exact acc_first m c t hN (by omega) p
  | succ n ih =>
    intro t ht hN p
    by_cases h0 : t.val % 4 = 0
    · exact acc_first m c t hN h0 p
    · refine acc_next m c t hN h0 p ?_
      have hN' : (⟨t.val - 1, prevLt t⟩ : Fin cfg0.N).val < 128 := by dsimp only; omega
      have hp := ih ⟨t.val - 1, prevLt t⟩ (by dsimp only; omega) hN' p
      unfold AccAt at hp ⊢
      dsimp only at hp
      have eb : bOf (t.val - 1) hN' = bOf t.val hN := Fin.ext (by simp only [bOf]; omega)
      have er : rowQ (t.val - 1) p = rowQ t.val p := Fin.ext (by simp only [rowQ]; omega)
      have ek : (t.val - 1) % 4 + 1 = t.val % 4 := by omega
      rw [eb, er, ek] at hp
      exact hp

/-- At a last key block the output block's staging buffer is left at the attention function of the input, at the rows
    of the point's query block. -/
theorem out_eq (c : Dev nD) (t : Fin cfg0.N) (hN : t.val < 128) (h0 : ¬t.val % 4 = 0) (h1 : t.val % 4 = 3) (p : Fin 128) (d : Fin 64) :
    (outsAt0 m c t.val t.isLt).1 (ix3 0 p d) = G (xin m c) (ix3 (bOf t.val hN) (rowQ t.val p) d) := by
  have hacc := acc_eq m c t.val t rfl hN p
  unfold AccAt at hacc
  obtain ⟨hL, hNn⟩ := hacc
  have hd := hNn d
  rw [outsAt0_C m c t h0 h1] at hL hd ⊢
  dsimp only at hL hd ⊢
  rw [soutC_0_eq m c t h0 h1 (outsAt0 m c (t.val - 1) (prevLt t)).2.1 (outsAt0 m c (t.val - 1) (prevLt t)).2.2] at hL
  rw [soutC_1_eq m c t h0 h1 (outsAt0 m c (t.val - 1) (prevLt t)).2.1 (outsAt0 m c (t.val - 1) (prevLt t)).2.2] at hd
  rw [outC_3_eq m c t h0 h1 (outsAt0 m c (t.val - 1) (prevLt t)).2.1 (outsAt0 m c (t.val - 1) (prevLt t)).2.2,
    pay1_apply, hL, hd, h1, accL_four, accN_four]
  rfl

/-- The same, as one function of the block's index. -/
theorem out_blk (c : Dev nD) (t : Fin cfg0.N) (hN : t.val < 128) (h0 : ¬t.val % 4 = 0) (h1 : t.val % 4 = 3) :
    (outsAt0 m c t.val t.isLt).1 = fun y : S1x128x64.Idx => G (xin m c) (ix3 (bOf t.val hN) (rowQ t.val (y 1)) (y 2)) := by
  funext y
  obtain ⟨u, p, d, rfl⟩ : ∃ (u : Fin 1) (p : Fin 128) (d : Fin 64), y = ix3 u p d := ⟨y 0, y 1, y 2, eq_ix3 y⟩
  obtain rfl : u = 0 := Subsingleton.elim _ _
  exact out_eq m c t hN h0 h1 p d

/-- A block of the result array read through the output window: rows of the point's query block. -/
theorem read_blk (t : Fin cfg0.N) (hN : t.val < 128) (g : S4x1024x64.Idx → EReal) :
    ((cfg0.win 3).blk t).view.read (Elt Ideal) g = fun y : S1x128x64.Idx => g (ix3 (bOf t.val hN) (rowQ t.val (y 1)) (y 2)) := by
  funext y
  obtain ⟨u, p, d, rfl⟩ : ∃ (u : Fin 1) (p : Fin 128) (d : Fin 64), y = ix3 u p d := ⟨y 0, y 1, y 2, eq_ix3 y⟩
  obtain rfl : u = 0 := Subsingleton.elim _ _
  rw [View.read_apply]
  show g (((cfg0.win 3).blk t).view.emb (ix3 0 p d)) = _
  rw [out_idx t hN p d]

/-- What a last-key-block point writes back is its block of the attention function of the input. -/
theorem flushed_eq (c : Dev nD) (t : Fin cfg0.N) (hf : (cfg0.win 3).flush t = true) :
    (dats m 0 c).flushed 3 t = ((cfg0.win 3).blk t).view.read (Elt Ideal) (G (xin m c)) := by
  have h1 : t.val % 4 = 3 := (flush0_3 t).mp hf
  have h0 : ¬ t.val % 4 = 0 := by omega
  have hN : t.val < 128 := lt_of_lt_of_eq t.isLt (show cfg0.N = 128 from N_0)
  show (cfg0.win 3).cut (grid0.coords t) ((dats m 0 c).after 3 t) = _
  rw [after0_3]
  show (outsAt0 m c t.val t.isLt).1 = _
  rw [out_blk m c t hN h0 h1]
  exact (read_blk t hN (G (xin m c))).symm

/-- The result array after the run is the attention function of the input. -/
theorem final3 (c : Dev nD) : (dats m 0 c).arrAt 3 cfg0.N = G (xin m c) :=
  (dats m 0 c).arrAt_eq_of_cover 3 (G (xin m c)) (flushed_eq m c) cover3

/-- The run, read: the result array at the attention function of the input, the input unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun _ h c => ⟨(h c 3).trans (final3 m c),
      (h c 0).trans (((dats m 0 c).arrAt_in 0 rfl _).trans ((A_eq m c 0).trans (V_main_arg0 m c)))⟩)
    (run_main m ρ)

end Cert.KernelIdeal.Hand

end
-- ==== Proof.Softmax.lean ====
/-
  The algebra of a softmax-weighted average on the extended reals, when every quantity is a real number.

  For real scores e_j, real values v_j and any real shift M,
      Σ_j (exp (e_j − M) / (0 + Σ_k exp (e_k − M))) · v_j  =  (Σ_j exp (e_j) · v_j) / (Σ_j exp (e_j)).
  Indeed exp (e_j − M) = exp (e_j) / exp (M), the positive real exp (M) cancels between a weight and the sum of
  the weights, and a quotient by the positive real Σ_j exp (e_j) is the product with its inverse, which a finite
  sum distributes over. Everything is computed in ℝ: each extended real is replaced by its real witness and the
  coercion is pushed out of the sums.

  Beside it, the two facts that make the quantities real in the first place: a finite sum of tanh (a_d + b_d) of
  reals is real, and the maximum of finitely many reals (at least one), taken from −∞, is real.
-/
import Idealize.ShloMosaic.PureOps.Ideal

noncomputable section

open scoped BigOperators

namespace Cert.Softmax

open Idealize.ShloMosaic

/-- A finite sum of real numbers, taken on the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- A finite sum of extended reals that are all real numbers is a real number. -/
theorem sum_real {ι : Type*} (s : Finset ι) (f : ι → EReal) (hf : ∀ i, ∃ r : ℝ, f i = r) :
    ∃ r : ℝ, ∑ i ∈ s, f i = r := by
  choose g hg using hf
  exact ⟨∑ i ∈ s, g i, by rw [← coe_sum]; exact Finset.sum_congr rfl fun i _ => hg i⟩

/-- The sum over a finite index set of tanh (a_d + b_d), for real a_d and b_d, is a real number. -/
theorem sum_tanh_add_real {κ : Type*} [Fintype κ] (a b : κ → EReal) (ha : ∀ d, ∃ r : ℝ, a d = r)
    (hb : ∀ d, ∃ r : ℝ, b d = r) : ∃ r : ℝ, ∑ d, Ideal.tanh (a d + b d) = r := by
  refine sum_real _ _ fun d => ?_
  obtain ⟨p, hp⟩ := ha d
  obtain ⟨q, hq⟩ := hb d
  exact ⟨Real.tanh (p + q), by rw [hp, hq, ← EReal.coe_add, Ideal.tanh_coe]⟩

/-- The maximum of finitely many real numbers, at least one, taken from −∞, is one of them: a real number. -/
theorem fold_max_bot_real {ι : Type*} (s : Finset ι) (hs : s.Nonempty) (g : ι → EReal)
    (hg : ∀ k, ∃ r : ℝ, g k = r) : ∃ r : ℝ, s.fold max ⊥ g = r := by
  have h : s.fold max ⊥ g = s.sup g := rfl
  obtain ⟨k, _, hk⟩ := Finset.exists_mem_eq_sup s hs g
  obtain ⟨r, hr⟩ := hg k
  exact ⟨r, by rw [h, hk, hr]⟩

/-- The softmax-weighted sum with its weights shifted by a real M and normalised one by one is the quotient of the
    unshifted weighted sum by the unshifted sum of the weights. -/
theorem softmax_contract {ι : Type*} [Fintype ι] [Nonempty ι] (e v : ι → EReal) (M : EReal)
    (he : ∀ j, ∃ r : ℝ, e j = r) (hv : ∀ j, ∃ r : ℝ, v j = r) (hM : ∃ r : ℝ, M = r) :
    ∑ j, Ideal.div (Ideal.exp (e j - M)) (0 + ∑ k, Ideal.exp (e k - M)) * v j
      = Ideal.div (∑ j, Ideal.exp (e j) * v j) (∑ j, Ideal.exp (e j)) := by
  choose er her using he
  choose vr hvr using hv
  obtain ⟨m, rfl⟩ := hM
  have hD : (0 : ℝ) < ∑ j, Real.exp (er j) :=
    Finset.sum_pos (fun j _ => Real.exp_pos _) Finset.univ_nonempty
  have hS : (0 : ℝ) < ∑ j, Real.exp (er j - m) :=
    Finset.sum_pos (fun j _ => Real.exp_pos _) Finset.univ_nonempty
  -- the three sums as real numbers
  have hden : (0 : EReal) + ∑ k, Ideal.exp (e k - (m : EReal)) = ((∑ k, Real.exp (er k - m) : ℝ) : EReal) := by
    rw [zero_add, ← coe_sum]
    exact Finset.sum_congr rfl fun k _ => by rw [her k, ← EReal.coe_sub, Ideal.exp_coe]
  have hden' : ∑ j, Ideal.exp (e j) = ((∑ j, Real.exp (er j) : ℝ) : EReal) := by
    rw [← coe_sum]
    exact Finset.sum_congr rfl fun k _ => by rw [her k, Ideal.exp_coe]
  have hnum' : ∑ j, Ideal.exp (e j) * v j = ((∑ j, Real.exp (er j) * vr j : ℝ) : EReal) := by
    rw [← coe_sum]
    exact Finset.sum_congr rfl fun k _ => by rw [her k, hvr k, Ideal.exp_coe, ← EReal.coe_mul]
  -- one term of the left side as a real number
  have hterm : ∀ j, Ideal.div (Ideal.exp (e j - (m : EReal))) ((∑ k, Real.exp (er k - m) : ℝ) : EReal) * v j
      = ((Real.exp (er j - m) * (1 / ∑ k, Real.exp (er k - m)) * vr j : ℝ) : EReal) := by
    intro j
    rw [Ideal.div_coe hS.ne', her j, hvr j, ← EReal.coe_sub, Ideal.exp_coe, ← EReal.coe_mul, ← EReal.coe_mul]
  rw [hden, hden', hnum', Ideal.div_coe hD.ne', ← EReal.coe_mul, Finset.sum_congr rfl fun j _ => hterm j, coe_sum]
  congr 1
  -- the identity in ℝ
  have hSD : ∑ k, Real.exp (er k - m) = (∑ k, Real.exp (er k)) / Real.exp m := by
    rw [Finset.sum_div]; exact Finset.sum_congr rfl fun k _ => Real.exp_sub _ _
  have hm : Real.exp m ≠ 0 := Real.exp_ne_zero m
  rw [Finset.sum_mul]
  refine Finset.sum_congr rfl fun j _ => ?_
  rw [hSD, Real.exp_sub]
  field_simp

end Cert.Softmax

end
-- ==== Proof.RefValue.lean ====
/-
  The reference's result, index by index, is the attention function of the input.

  The reference computes, for a query position i of batch b, the scores e_j = Σ_d tanh (x[b,i,d] + x[b,j,d]), a
  shift M (the maximum of the e_j, taken from −∞), the weights exp (e_j − M) divided one by one by their sum, and
  contracts them with the rows x[b,j,·]. When every entry of x is a real number, every e_j is real and so is M (it
  is one of the e_j), and the shifted, term-by-term normalised sum is the quotient
  (Σ_j exp (e_j) · x[b,j,d]) / (Σ_j exp (e_j)) of the specification (the algebra is in the softmax module). That M is
  the maximum plays no part: only that it is a real number.
-/
import proofs.«151206_j77970836292245_2_alg».proof.Proof.Gen.ReferenceIdeal.Read
import proofs.«151206_j77970836292245_2_alg».proof.Proof.Spec
import proofs.«151206_j77970836292245_2_alg».proof.Proof.Softmax

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.Attn

/-- The input array at the ideal instance. -/
abbrev X : Type := (⟨S4x1024x64, .f32⟩ : BufTy).Contents (Elt Ideal)

/-! ## The composed index functions at coordinates -/

/-- The query operand of the score at (b, i, j), feature d, is x[b, i, d]. -/
theorem idx_query (b : Fin 4) (i j : Fin 1024) (d : Fin 64) :
    idx_main_v0 (idx_main_v2 (idx_main_v6 (ix3 b i j) d)) = ix3 b i d := by
  funext a; match a with | ⟨0, _⟩ => rfl | ⟨1, _⟩ => rfl | ⟨2, _⟩ => rfl

/-- The key operand of the score at (b, i, j), feature d, is x[b, j, d]. -/
theorem idx_key (b : Fin 4) (i j : Fin 1024) (d : Fin 64) :
    idx_main_v1 (idx_main_v3 (idx_main_v6 (ix3 b i j) d)) = ix3 b j d := by
  funext a; match a with | ⟨0, _⟩ => rfl | ⟨1, _⟩ => rfl | ⟨2, _⟩ => rfl

/-- The shift subtracted at (b, i, j) is the row's, at (b, i). -/
theorem idx_shift (b : Fin 4) (i j : Fin 1024) : idx_main_v10 (idx_main_v11 (ix3 b i j)) = ix2 b i := by
  funext a; match a with | ⟨0, _⟩ => rfl | ⟨1, _⟩ => rfl

/-- The divisor at (b, i, j) is the row's, at (b, i). -/
theorem idx_norm (b : Fin 4) (i j : Fin 1024) : idx_main_v15 (idx_main_v16 (ix3 b i j)) = ix2 b i := by
  funext a; match a with | ⟨0, _⟩ => rfl | ⟨1, _⟩ => rfl

/-- The k-th summand of the row sum at (b, i) sits at (b, i, k). -/
theorem idx_rowsum (b : Fin 4) (i k : Fin 1024) : idx_main_v14 (ix2 b i) k = ix3 b i k := by
  funext a; match a with | ⟨0, _⟩ => rfl | ⟨1, _⟩ => rfl | ⟨2, _⟩ => rfl

/-- The contraction's k-th weight for the result at (b, i, d) sits at (b, i, k). -/
theorem idx_lhs (b : Fin 4) (i : Fin 1024) (d : Fin 64) (k : Fin 1024) : lidx_main_v18 (ix3 b i d) k = ix3 b i k := by
  funext a; match a with | ⟨0, _⟩ => rfl | ⟨1, _⟩ => rfl | ⟨2, _⟩ => rfl

/-- The contraction's k-th row entry for the result at (b, i, d) is x[b, k, d]. -/
theorem idx_rhs (b : Fin 4) (i : Fin 1024) (d : Fin 64) (k : Fin 1024) : ridx_main_v18 (ix3 b i d) k = ix3 b k d := by
  funext a; match a with | ⟨0, _⟩ => rfl | ⟨1, _⟩ => rfl | ⟨2, _⟩ => rfl

/-! ## The stages at coordinates -/

/-- The reduced tanh array at (b, i, j) is the additive score. -/
theorem v6_ix3 (x : X) (b : Fin 4) (i j : Fin 1024) :
    val_main_v6 (F := Ideal) x (ix3 b i j) = score x b i j := by
  rw [val_main_v6_apply, val_main_cst_apply]
  simp only [val_main_v5_apply, val_main_v4_apply, val_main_v2_apply, val_main_v3_apply, val_main_v0_apply,
    val_main_v1_apply, idx_query, idx_key, Ideal.hostUnary_tanh_def, Ideal.addf_def, Ideal.ofBits_def,
    Ideal.ofBits_zero_f32, zero_add]
  rfl

/-- With real inputs every score is a real number. -/
theorem score_real (x : X) (hfin : Finite x) (b : Fin 4) (i j : Fin 1024) : ∃ r : ℝ, score x b i j = r :=
  Cert.Softmax.sum_tanh_add_real _ _ (fun d => hfin _) (fun d => hfin _)

/-- With real inputs every entry of the score array is a real number. -/
theorem v6_real (x : X) (hfin : Finite x) (i3 : S4x1024x1024.Idx) : ∃ r : ℝ, val_main_v6 (F := Ideal) x i3 = r := by
  obtain ⟨b, i, j, rfl⟩ : ∃ (b : Fin 4) (i j : Fin 1024), i3 = ix3 b i j := ⟨i3 0, i3 1, i3 2, eq_ix3 i3⟩
  rw [v6_ix3]; exact score_real x hfin b i j

/-- The pattern of −∞. -/
theorem ofBits_neg_inf : Ideal.ofBits .f32 0xFF800000#32 = ⊥ := by simp [Ideal.ofBits, Ideal.ieee]

/-- With real inputs the shift of every row — the maximum over the row's scores, from −∞, against −∞ — is a real number. -/
theorem v9_real (x : X) (hfin : Finite x) (j : S4x1024.Idx) : ∃ M : ℝ, val_main_v9 (F := Ideal) x j = M := by
  have hred : S4x1024x1024.Reduces [2] S4x1024 := by decide
  rw [val_main_v9_apply, val_main_v8_apply, val_main_cst_1_apply]
  unfold val_main_v7
  rw [Host.reduce_eq_fold_single FloatOps.maximumf _ _ reducesTo_S4x1024x1024_S4x1024_d2 hred h_S_ j,
    val_main_cst_0_apply]
  simp only [Ideal.ofBits_def, ofBits_neg_inf, Ideal.maximumf_def, bot_le, max_eq_right]
  exact Cert.Softmax.fold_max_bot_real _ ⟨⟨0, by decide⟩, Finset.mem_univ _⟩ _ (fun k => v6_real x hfin _)

/-- The exponentiated array at (b, i, j): the exponential of the score less the row's shift. -/
theorem v13_ix3 (x : X) (b : Fin 4) (i j : Fin 1024) :
    val_main_v13 (F := Ideal) x (ix3 b i j) = Ideal.exp (score x b i j - val_main_v9 (F := Ideal) x (ix2 b i)) := by
  rw [val_main_v13_apply, val_main_v12_apply, val_main_v11_apply, val_main_v10_apply, v6_ix3, idx_shift]
  rfl

/-- The row sum at (b, i). -/
theorem v14_ix2 (x : X) (b : Fin 4) (i : Fin 1024) :
    val_main_v14 (F := Ideal) x (ix2 b i) = 0 + ∑ k : Fin 1024, val_main_v13 (F := Ideal) x (ix3 b i k) := by
  rw [val_main_v14_apply, val_main_cst_2_apply]
  simp only [idx_rowsum, Ideal.ofBits_def, Ideal.ofBits_zero_f32]

/-- The normalised weight at (b, i, j). -/
theorem v17_ix3 (x : X) (b : Fin 4) (i j : Fin 1024) :
    val_main_v17 (F := Ideal) x (ix3 b i j)
      = Ideal.div (val_main_v13 (F := Ideal) x (ix3 b i j)) (val_main_v14 (F := Ideal) x (ix2 b i)) := by
  rw [val_main_v17_apply, val_main_v16_apply, val_main_v15_apply, idx_norm]
  rfl

/-! ## The reference is the attention function -/

/-- The last stage of the reference, of real inputs, is the attention function. -/
theorem ref_val_eq (x : X) (hfin : Finite x) : val_main_v18 (F := Ideal) x = G x := by
  funext idx
  obtain ⟨b, i, d, rfl⟩ : ∃ (b : Fin 4) (i : Fin 1024) (d : Fin 64), idx = ix3 b i d :=
    ⟨idx 0, idx 1, idx 2, eq_ix3 idx⟩
  obtain ⟨M, hM⟩ := v9_real x hfin (ix2 b i)
  rw [G_ix3, val_main_v18_apply]
  have hterm : ∀ k : Fin 1024,
      val_main_v17 (F := Ideal) x (lidx_main_v18 (ix3 b i d) k) * x (ridx_main_v18 (ix3 b i d) k)
        = Ideal.div (Ideal.exp (score x b i k - (M : EReal))) (0 + ∑ k' : Fin 1024, Ideal.exp (score x b i k' - (M : EReal)))
            * x (ix3 b k d) := by
    intro k
    rw [idx_lhs, idx_rhs, v17_ix3, v14_ix2, v13_ix3, hM]
    simp only [v13_ix3, hM]
  rw [Finset.sum_congr rfl fun k _ => hterm k]
  exact Cert.Softmax.softmax_contract (fun k => score x b i k) (fun k => x (ix3 b k d)) (M : EReal)
    (fun k => score_real x hfin b i k) (fun k => hfin _) ⟨M, rfl⟩

/-- The reference run's result term, of real inputs, is the attention function. -/
theorem ref_eq (x : X) (hfin : Finite x) :
    Host.dotGeneral (F := Ideal) (φ₂ := .f32) dot_S4x1024x1024_S4x1024x64_S4x1024x64_2_1_1_2_0_0 none (Host.divf (Host.exp (subf (Host.reduceAdd (Host.tanh (addf (broadcastInDim S4x1024x1024x64 ![0, 1, 2, 3] bcast_S4x1024x1x64_S4x1024x1024x64_0_1_2_3 (broadcastInDim S4x1024x1x64 ![0, 1, 3] bcast_S4x1024x64_S4x1024x1x64_0_1_3 (x))) (broadcastInDim S4x1024x1024x64 ![0, 1, 2, 3] bcast_S4x1x1024x64_S4x1024x1024x64_0_1_2_3 (broadcastInDim S4x1x1024x64 ![0, 2, 3] bcast_S4x1024x64_S4x1x1024x64_0_2_3 (x))))) (constant S_ .f32 0x00000000#32) reducesTo_S4x1024x1024x64_S4x1024x1024_d3 h_S_) (broadcastInDim S4x1024x1024 ![0, 1, 2] bcast_S4x1024x1_S4x1024x1024_0_1_2 (broadcastInDim S4x1024x1 ![0, 1] bcast_S4x1024_S4x1024x1_0_1 (maximumf (broadcastInDim S4x1024 ![] bcast_S_S4x1024 (constant S_ .f32 0xFF800000#32)) (Host.reduce FloatOps.maximumf (Host.reduceAdd (Host.tanh (addf (broadcastInDim S4x1024x1024x64 ![0, 1, 2, 3] bcast_S4x1024x1x64_S4x1024x1024x64_0_1_2_3 (broadcastInDim S4x1024x1x64 ![0, 1, 3] bcast_S4x1024x64_S4x1024x1x64_0_1_3 (x))) (broadcastInDim S4x1024x1024x64 ![0, 1, 2, 3] bcast_S4x1x1024x64_S4x1024x1024x64_0_1_2_3 (broadcastInDim S4x1x1024x64 ![0, 2, 3] bcast_S4x1024x64_S4x1x1024x64_0_2_3 (x))))) (constant S_ .f32 0x00000000#32) reducesTo_S4x1024x1024x64_S4x1024x1024_d3 h_S_) (constant S_ .f32 0xFF800000#32) reducesTo_S4x1024x1024_S4x1024_d2 h_S_)))))) (broadcastInDim S4x1024x1024 ![0, 1, 2] bcast_S4x1024x1_S4x1024x1024_0_1_2 (broadcastInDim S4x1024x1 ![0, 1] bcast_S4x1024_S4x1024x1_0_1 (Host.reduceAdd (Host.exp (subf (Host.reduceAdd (Host.tanh (addf (broadcastInDim S4x1024x1024x64 ![0, 1, 2, 3] bcast_S4x1024x1x64_S4x1024x1024x64_0_1_2_3 (broadcastInDim S4x1024x1x64 ![0, 1, 3] bcast_S4x1024x64_S4x1024x1x64_0_1_3 (x))) (broadcastInDim S4x1024x1024x64 ![0, 1, 2, 3] bcast_S4x1x1024x64_S4x1024x1024x64_0_1_2_3 (broadcastInDim S4x1x1024x64 ![0, 2, 3] bcast_S4x1024x64_S4x1x1024x64_0_2_3 (x))))) (constant S_ .f32 0x00000000#32) reducesTo_S4x1024x1024x64_S4x1024x1024_d3 h_S_) (broadcastInDim S4x1024x1024 ![0, 1, 2] bcast_S4x1024x1_S4x1024x1024_0_1_2 (broadcastInDim S4x1024x1 ![0, 1] bcast_S4x1024_S4x1024x1_0_1 (maximumf (broadcastInDim S4x1024 ![] bcast_S_S4x1024 (constant S_ .f32 0xFF800000#32)) (Host.reduce FloatOps.maximumf (Host.reduceAdd (Host.tanh (addf (broadcastInDim S4x1024x1024x64 ![0, 1, 2, 3] bcast_S4x1024x1x64_S4x1024x1024x64_0_1_2_3 (broadcastInDim S4x1024x1x64 ![0, 1, 3] bcast_S4x1024x64_S4x1024x1x64_0_1_3 (x))) (broadcastInDim S4x1024x1024x64 ![0, 1, 2, 3] bcast_S4x1x1024x64_S4x1024x1024x64_0_1_2_3 (broadcastInDim S4x1x1024x64 ![0, 2, 3] bcast_S4x1024x64_S4x1x1024x64_0_2_3 (x))))) (constant S_ .f32 0x00000000#32) reducesTo_S4x1024x1024x64_S4x1024x1024_d3 h_S_) (constant S_ .f32 0xFF800000#32) reducesTo_S4x1024x1024_S4x1024_d2 h_S_)))))) (constant S_ .f32 0x00000000#32) reducesTo_S4x1024x1024_S4x1024_d2 h_S_)))) (x)
      = G x :=
  (val_main_v18_eq (F := Ideal) x).trans (ref_val_eq x hfin)

end Cert.ReferenceIdeal.RefValue

end
-- ==== Proof.Finite.lean ====
/-
  Finiteness from the precondition.

  The precondition is the predicate "every entry of the input has absolute value below +∞", printed as host
  operations: the absolute value |x| = max x (-x), the comparison |x| < c against the constant c whose f32 pattern
  0x7F800000 denotes +∞, and the conjunction of the comparisons over all three axes. When the conjunction is 1 every
  comparison is 1, so max x (-x) < ⊤ at every index; an extended real with that property is neither ⊤ (then
  max x (-x) = ⊤) nor ⊥ (then -x = ⊤), hence a real number.
-/
import proofs.«151206_j77970836292245_2_alg».proof.Defs
import proofs.«151206_j77970836292245_2_alg».proof.Proof.Spec
import Idealize.ShloMosaic.Lib.ReduceAll
import Idealize.ShloMosaic.Lib.ValueIdx

noncomputable section

namespace Cert.Attn

open Idealize.ShloMosaic Idealize.ShloMosaic.ValueIdx

/-- An extended real whose absolute value `max x (-x)` is below `⊤` is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- The ordered "less than" comparison against `⊤` answering 1 says the value is below `⊤`. -/
theorem lt_top_of_cmp_olt (a : EReal) (h : Ideal.cmp .olt a ⊤ = 1#1) : a < ⊤ := by
  by_contra hn
  have h0 : Ideal.cmp .olt a ⊤ = 0#1 := by
    show BitVec.ofBool (decide (a < ⊤)) = 0#1
    rw [decide_eq_false hn]; rfl
  rw [h0] at h
  exact absurd h (by decide)

/-- The f32 pattern 0x7F800000 (sign 0, exponent all ones, fraction 0) denotes `+∞`. -/
theorem ofBits_inf_f32 : Ideal.ofBits .f32 0x7F800000#32 = ⊤ := by simp [Ideal.ofBits, Ideal.ieee]

/-- The rank-0 shape has one index. -/
instance : Subsingleton Cert.Pre_finite_inputs.S_.Idx := ⟨fun a b => funext fun d => d.elim0⟩

/-- The printed predicate `all (|x| < +∞)` answering 1 says every entry of `x` is a real number. -/
theorem finite_of_fn [Cert.Pre_finite_inputs.Facts] (x : FVec Ideal Cert.Pre_finite_inputs.S4x1024x64 .f32)
    (h : Cert.Pre_finite_inputs.fn (F := Ideal) x = (fun _ => 1#1)) : Finite x := by
  intro idx
  -- the predicate's one result element
  have e := congrFun h ValueIdx.ix0
  dsimp only [Cert.Pre_finite_inputs.fn] at e
  -- a conjunction over all axes that is 1 is 1 at every index
  have e1 := Host.reduce_andi_all _ _ _ _ _ e idx
  -- the element there: the comparison of max x (-x) with the constant
  change Ideal.cmp .olt (max (x idx) (-(x idx))) (Ideal.ofBits .f32 0x7F800000#32) = 1#1 at e1
  rw [ofBits_inf_f32] at e1
  exact exists_real_of_abs_lt_top _ (lt_top_of_cmp_olt _ e1)

/-- At the claim's precondition: on every device the kernel's argument array holds real numbers only. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Finite (m ((c.tc : Thread Cert.KernelIdeal.nD Cert.KernelIdeal.τ).loc Cert.KernelIdeal.main_arg0)) :=
  finite_of_fn _ (h c)

/-- The same for the reference's argument array under the reference's precondition. -/
theorem finite_of_pre_ref [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Finite (m ((c.tc : Thread Cert.ReferenceIdeal.nD Cert.ReferenceIdeal.τ).loc Cert.ReferenceIdeal.main_arg0)) :=
  finite_of_fn _ (h c)

end Cert.Attn

end
-- ==== Proof.lean ====
/-
  The claim: the kernel, its idealization and the reference each run to the end, fault nowhere and leave the input
  array unchanged; and at the ideal instance, where a float is an extended real and every operation its exact one,
  the kernel and the reference end with equal result arrays whenever every entry of the input is finite.

  For a query position i of batch b write e_j = Σ_d tanh (x[b,i,d] + x[b,j,d]) for its score against key position j.
  The kernel walks the key positions block by block, accumulating Σ_j exp (e_j) · x[b,j,·] and Σ_j exp (e_j), and
  divides the first by the second once, after the last block. The reference normalises first: it takes the softmax
  of the scores, shifted by the row's maximum M — each weight exp (e_j − M) divided by Σ_k exp (e_k − M) — and then
  contracts the weights with the rows. On finite inputs every e_j is a real number and so is M (it is one of them);
  then exp (e_j − M) = exp (e_j) / exp (M), the positive real exp (M) cancels between a weight and the sum of the
  weights, and the quotient by the positive real Σ_j exp (e_j) distributes over the finite sum. So both results are
  the one quotient (Σ_j exp (e_j) · x[b,j,d]) / (Σ_j exp (e_j)): the attention function of the input. Finiteness is
  what the precondition states (|x| < +∞ at every entry) and the cancellation needs it: it fails at an infinite
  score. A sum taken block by block is the sum, and a change of float format is the identity on the extended reals,
  so the kernel's side needs no other law.

  The idealization rewrote no operation of the kernel, so that it preserves the kernel is trivially true; the three
  frames are the three runs with their results dropped.
-/
import proofs.«151206_j77970836292245_2_alg».proof.Defs
import proofs.«151206_j77970836292245_2_alg».proof.Proof.Gen.Kernel
import proofs.«151206_j77970836292245_2_alg».proof.Proof.Gen.Kernel.Skeleton
import proofs.«151206_j77970836292245_2_alg».proof.Proof.Gen.Kernel.Launch
import proofs.«151206_j77970836292245_2_alg».proof.Proof.Gen.Kernel.Points
import proofs.«151206_j77970836292245_2_alg».proof.Proof.Gen.KernelIdeal
import proofs.«151206_j77970836292245_2_alg».proof.Proof.Gen.KernelIdeal.Skeleton
import proofs.«151206_j77970836292245_2_alg».proof.Proof.Gen.KernelIdeal.Launch
import proofs.«151206_j77970836292245_2_alg».proof.Proof.Gen.KernelIdeal.Points
import proofs.«151206_j77970836292245_2_alg».proof.Proof.Gen.ReferenceIdeal
import proofs.«151206_j77970836292245_2_alg».proof.Proof.Gen.Pre_finite_inputs
import proofs.«151206_j77970836292245_2_alg».proof.Proof.Kernel.Run
import proofs.«151206_j77970836292245_2_alg».proof.Proof.KernelIdeal.Run
import proofs.«151206_j77970836292245_2_alg».proof.Proof.KernelIdeal.Value
import proofs.«151206_j77970836292245_2_alg».proof.Proof.RefValue
import proofs.«151206_j77970836292245_2_alg».proof.Proof.Finite
import Idealize.ShloMosaic.Adequacy
import Idealize.ShloMosaic.Init

noncomputable section

namespace Cert.Proof

open Idealize.ShloMosaic Idealize.ShloMosaic.TcCoe Idealize.SL.Sem

/-- The kernel runs and leaves its input array unchanged. -/
theorem frame_p : Cert.frame_Kernel := fun m ρ _ => Cert.Kernel.Hand.frame m ρ

/-- The idealized kernel runs and leaves its input array unchanged. -/
theorem frame_pi : Cert.frame_KernelIdeal := fun m ρ _ => Cert.KernelIdeal.Hand.frame m ρ

/-- The reference runs and leaves its input array unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs that agree, the idealized kernel and the reference both end at the attention function of the
    input: the kernel by its run, the reference by its run read as that function; the inputs unchanged. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨?_, (h c).2⟩)
    (Cert.ReferenceIdeal.Value.run (F := Ideal) m' ρ')
  have hfin : Cert.Attn.Finite
      (m' ((c.tc : Thread Cert.ReferenceIdeal.nD Cert.ReferenceIdeal.τ).loc Cert.ReferenceIdeal.main_arg0)) := by
    rw [hagree c]; exact Cert.Attn.finite_of_pre m hpre c
  exact ((h c).1.trans (Cert.ReferenceIdeal.RefValue.ref_eq _ hfin)).trans (congrArg Cert.Attn.G (hagree c))

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
